-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S20000 : Shape := ⟨1, ![20000]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S4x256 .f32) (main_arg8 : FVec F S256x64 .f32) (main_arg9 : FVec F S64 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg7
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S256x64 .f32 := Host.absf main_arg8
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S20000x256 .f32) (main_arg1 : IVec S320000 32) (main_arg2 : IVec S320000 32) (main_arg3 : IVec S20000 32) (main_arg4 : FVec F S4x256x256 .f32) (main_arg5 : FVec F S4x256 .f32) (main_arg6 : FVec F S4x256x256 .f32) (main_arg7 : FVec F S4x256 .f32) (main_arg8 : FVec F S256x64 .f32) (main_arg9 : FVec F S64 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S4x256x256 .f32 := Host.absf main_arg4
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256 .f32 := Host.absf main_arg5
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x256 .f32 := Host.absf main_arg6
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg7 main_arg8 main_arg9 main_v13 main_v16
-- ==== Kernel.lean ====
abbrev S20000x256 : Shape := ⟨2, ![20000, 256]⟩
abbrev S320000 : Shape := ⟨1, ![320000]⟩
abbrev S20000 : Shape := ⟨1, ![20000]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S_ : Shape := ⟨0, ![]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S128x256 : Shape := ⟨2, ![128, 256]⟩
abbrev S20000x1 : Shape := ⟨2, ![20000, 1]⟩
abbrev S128x64 : Shape := ⟨2, ![128, 64]⟩
abbrev S1x64 : Shape := ⟨2, ![1, 64]⟩

abbrev nBuf : Space → Nat
  | .hbm => 125
  | .vmem => 40
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S20000, .i32⟩
  | .hbm, ⟨4, _⟩ => ⟨S4x256x256, .f32⟩
  | .hbm, ⟨5, _⟩ => ⟨S4x256, .f32⟩
  | .hbm, ⟨6, _⟩ => ⟨S4x256x256, .f32⟩
  | .hbm, ⟨7, _⟩ => ⟨S4x256, .f32⟩
  | .hbm, ⟨8, _⟩ => ⟨S256x64, .f32⟩
  | .hbm, ⟨9, _⟩ => ⟨S64, .f32⟩
  | .hbm, ⟨10, _⟩ => ⟨S4x256x256, .bf16⟩
  | .hbm, ⟨11, _⟩ => ⟨S4x256x256, .bf16⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .f32⟩
  | .hbm, ⟨22, _⟩ => ⟨S20000x256, .f32⟩
  | .hbm, ⟨23, _⟩ => ⟨S320000x1, .i32⟩
  | .hbm, ⟨24, _⟩ => ⟨S20000x256, .f32⟩
  | .hbm, ⟨25, _⟩ => ⟨S1x256x256, .bf16⟩
  | .hbm, ⟨26, _⟩ => ⟨S256x256, .bf16⟩
  | .hbm, ⟨27, _⟩ => ⟨S1x256, .f32⟩
  | .hbm, ⟨28, _⟩ => ⟨S256, .f32⟩
  | .hbm, ⟨29, _⟩ => ⟨S1x256x256, .bf16⟩
  | .hbm, ⟨30, _⟩ => ⟨S256x256, .bf16⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S20000x256, .f32⟩
  | .hbm, ⟨36, _⟩ => ⟨S_, .f32⟩
  | .hbm, ⟨37, _⟩ => ⟨S20000x256, .f32⟩
  | .hbm, ⟨38, _⟩ => ⟨S20000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S_, .f32⟩
  | .hbm, ⟨49, _⟩ => ⟨S20000x256, .f32⟩
  | .hbm, ⟨50, _⟩ => ⟨S320000x1, .i32⟩
  | .hbm, ⟨51, _⟩ => ⟨S20000x256, .f32⟩
  | .hbm, ⟨52, _⟩ => ⟨S1x256x256, .bf16⟩
  | .hbm, ⟨53, _⟩ => ⟨S256x256, .bf16⟩
  | .hbm, ⟨54, _⟩ => ⟨S1x256, .f32⟩
  | .hbm, ⟨55, _⟩ => ⟨S256, .f32⟩
  | .hbm, ⟨56, _⟩ => ⟨S1x256x256, .bf16⟩
  | .hbm, ⟨57, _⟩ => ⟨S256x256, .bf16⟩
  | .hbm, ⟨58, _⟩ => ⟨S1x256, .f32⟩
  | .hbm, ⟨59, _⟩ => ⟨S256, .f32⟩
  | .hbm, ⟨60, _⟩ => ⟨S1x256, .f32⟩
  | .hbm, ⟨61, _⟩ => ⟨S1x256, .f32⟩
  | .hbm, ⟨62, _⟩ => ⟨S20000x256, .f32⟩
  | .hbm, ⟨63, _⟩ => ⟨S_, .f32⟩
  | .hbm, ⟨64, _⟩ => ⟨S20000x256, .f32⟩
  | .hbm, ⟨65, _⟩ => ⟨S20000x256, .f32⟩
  | .hbm, ⟨66, _⟩ => ⟨S_, .i32⟩
  | .hbm, ⟨67, _⟩ => ⟨S320000, .i32⟩
  | .hbm, ⟨68, _⟩ => ⟨S320000, .i1⟩
  | .hbm, ⟨69, _⟩ => ⟨S_, .i32⟩
  | .hbm, ⟨70, _⟩ => ⟨S320000, .i32⟩
  | .hbm, ⟨71, _⟩ => ⟨S320000, .i32⟩
  | .hbm, ⟨72, _⟩ => ⟨S320000, .i32⟩
  | .hbm, ⟨73, _⟩ => ⟨S320000x1, .i32⟩
  | .hbm, ⟨74, _⟩ => ⟨S320000x256, .f32⟩
  | .hbm, ⟨75, _⟩ => ⟨S_, .f32⟩
  | .hbm, ⟨76, _⟩ => ⟨S20000x256, .f32⟩
  | .hbm, ⟨77, _⟩ => ⟨S320000x1, .i32⟩
  | .hbm, ⟨78, _⟩ => ⟨S20000x256, .f32⟩
  | .hbm, ⟨79, _⟩ => ⟨S1x256x256, .bf16⟩
  | .hbm, ⟨80, _⟩ => ⟨S256x256, .bf16⟩
  | .hbm, ⟨81, _⟩ => ⟨S1x256, .f32⟩
  | .hbm, ⟨82, _⟩ => ⟨S256, .f32⟩
  | .hbm, ⟨83, _⟩ => ⟨S1x256x256, .bf16⟩
  | .hbm, ⟨84, _⟩ => ⟨S256x256, .bf16⟩
  | .hbm, ⟨85, _⟩ => ⟨S1x256, .f32⟩
  | .hbm, ⟨86, _⟩ => ⟨S256, .f32⟩
  | .hbm, ⟨87, _⟩ => ⟨S1x256, .f32⟩
  | .hbm, ⟨88, _⟩ => ⟨S1x256, .f32⟩
  | .hbm, ⟨89, _⟩ => ⟨S20000x256, .f32⟩
  | .hbm, ⟨90, _⟩ => ⟨S_, .f32⟩
  | .hbm, ⟨91, _⟩ => ⟨S20000x256, .f32⟩
  | .hbm, ⟨92, _⟩ => ⟨S20000x256, .f32⟩
  | .hbm, ⟨93, _⟩ => ⟨S_, .i32⟩
  | .hbm, ⟨94, _⟩ => ⟨S320000, .i32⟩
  | .hbm, ⟨95, _⟩ => ⟨S320000, .i1⟩
  | .hbm, ⟨96, _⟩ => ⟨S_, .i32⟩
  | .hbm, ⟨97, _⟩ => ⟨S320000, .i32⟩
  | .hbm, ⟨98, _⟩ => ⟨S320000, .i32⟩
  | .hbm, ⟨99, _⟩ => ⟨S320000, .i32⟩
  | .hbm, ⟨100, _⟩ => ⟨S320000x1, .i32⟩
  | .hbm, ⟨101, _⟩ => ⟨S320000x256, .f32⟩
  | .hbm, ⟨102, _⟩ => ⟨S_, .f32⟩
  | .hbm, ⟨103, _⟩ => ⟨S20000x256, .f32⟩
  | .hbm, ⟨104, _⟩ => ⟨S320000x1, .i32⟩
  | .hbm, ⟨105, _⟩ => ⟨S20000x256, .f32⟩
  | .hbm, ⟨106, _⟩ => ⟨S1x256x256, .bf16⟩
  | .hbm, ⟨107, _⟩ => ⟨S256x256, .bf16⟩
  | .hbm, ⟨108, _⟩ => ⟨S1x256, .f32⟩
  | .hbm, ⟨109, _⟩ => ⟨S256, .f32⟩
  | .hbm, ⟨110, _⟩ => ⟨S1x256x256, .bf16⟩
  | .hbm, ⟨111, _⟩ => ⟨S256x256, .bf16⟩
  | .hbm, ⟨112, _⟩ => ⟨S1x256, .f32⟩
  | .hbm, ⟨113, _⟩ => ⟨S256, .f32⟩
  | .hbm, ⟨114, _⟩ => ⟨S1x256, .f32⟩
  | .hbm, ⟨115, _⟩ => ⟨S1x256, .f32⟩
  | .hbm, ⟨116, _⟩ => ⟨S20000x256, .f32⟩
  | .hbm, ⟨117, _⟩ => ⟨S_, .f32⟩
  | .hbm, ⟨118, _⟩ => ⟨S128x256, .f32⟩
  | .hbm, ⟨119, _⟩ => ⟨S20000x1, .i32⟩
  | .hbm, ⟨120, _⟩ => ⟨S128x256, .f32⟩
  | .hbm, ⟨121, _⟩ => ⟨S128x64, .f32⟩
  | .hbm, ⟨122, _⟩ => ⟨S1x64, .f32⟩
  | .hbm, ⟨123, _⟩ => ⟨S128x64, .f32⟩
  | .hbm, ⟨124, _⟩ => ⟨S128x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .bf16⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x256, .bf16⟩
  | .local _ .vmem, ⟨35, _⟩ => ⟨S1x256, .f32⟩
  | .local _ .vmem, ⟨36, _⟩ => ⟨S256x256, .bf16⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_c_6 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_c_10 : Ref sig .tc := ⟨.hbm, 93, rfl⟩
abbrev main_v71 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_13 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S20000_S20000x1_0 : S20000.BroadcastsInDim S20000x1 (![0] : Fin 1 → Fin S20000x1.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  scatter_S128x256_S20000x1_S20000x256_1_0_0_1_wf : ScatterDims.WF S128x256 S20000x1 S20000x256 [1] [0] [0] 1
  dot_S128x256_S256x64_S128x64_1_0_0_1_n_n_wf : DotDims.WF S128x256 S256x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S20000x256 : Shape := ⟨2, ![20000, 256]⟩
abbrev S320000 : Shape := ⟨1, ![320000]⟩
abbrev S20000 : Shape := ⟨1, ![20000]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S_ : Shape := ⟨0, ![]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S128x256 : Shape := ⟨2, ![128, 256]⟩
abbrev S20000x1 : Shape := ⟨2, ![20000, 1]⟩
abbrev S128x64 : Shape := ⟨2, ![128, 64]⟩
abbrev S1x64 : Shape := ⟨2, ![1, 64]⟩

abbrev nBuf : Space → Nat
  | .hbm => 159
  | .vmem => 0
  | .smem => 0
  | _ => 0

abbrev hbmTy0_0 (i : Nat) : BufTy := match i % 128 with
  | 0 => ⟨S20000x256, .f32⟩
  | 1 => ⟨S320000, .i32⟩
  | 2 => ⟨S320000, .i32⟩
  | 3 => ⟨S20000, .i32⟩
  | 4 => ⟨S4x256x256, .f32⟩
  | 5 => ⟨S4x256, .f32⟩
  | 6 => ⟨S4x256x256, .f32⟩
  | 7 => ⟨S4x256, .f32⟩
  | 8 => ⟨S256x64, .f32⟩
  | 9 => ⟨S64, .f32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000x256, .f32⟩
  | 19 => ⟨S_, .f32⟩
  | 20 => ⟨S20000x256, .f32⟩
  | 21 => ⟨S320000x1, .i32⟩
  | 22 => ⟨S20000x256, .f32⟩
  | 23 => ⟨S20000x256, .f32⟩
  | 24 => ⟨S1x256x256, .f32⟩
  | 25 => ⟨S256x256, .f32⟩
  | 26 => ⟨S20000x256, .f32⟩
  | 27 => ⟨S1x256, .f32⟩
  | 28 => ⟨S256, .f32⟩
  | 29 => ⟨S1x256, .f32⟩
  | 30 => ⟨S20000x256, .f32⟩
  | 31 => ⟨S20000x256, .f32⟩
  | 32 => ⟨S_, .f32⟩
  | 33 => ⟨S20000x256, .f32⟩
  | 34 => ⟨S20000x256, .f32⟩
  | 35 => ⟨S1x256x256, .f32⟩
  | 36 => ⟨S256x256, .f32⟩
  | 37 => ⟨S20000x256, .f32⟩
  | 38 => ⟨S1x256, .f32⟩
  | 39 => ⟨S256, .f32⟩
  | 40 => ⟨S1x256, .f32⟩
  | 41 => ⟨S20000x256, .f32⟩
  | 42 => ⟨S20000x256, .f32⟩
  | 43 => ⟨S_, .f32⟩
  | 44 => ⟨S20000x256, .f32⟩
  | 45 => ⟨S20000x256, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000x256, .f32⟩
  | 55 => ⟨S_, .f32⟩
  | 56 => ⟨S20000x256, .f32⟩
  | 57 => ⟨S320000x1, .i32⟩
  | 58 => ⟨S20000x256, .f32⟩
  | 59 => ⟨S20000x256, .f32⟩
  | 60 => ⟨S1x256x256, .f32⟩
  | 61 => ⟨S256x256, .f32⟩
  | 62 => ⟨S20000x256, .f32⟩
  | 63 => ⟨S1x256, .f32⟩
  | 64 => ⟨S256, .f32⟩
  | 65 => ⟨S1x256, .f32⟩
  | 66 => ⟨S20000x256, .f32⟩
  | 67 => ⟨S20000x256, .f32⟩
  | 68 => ⟨S_, .f32⟩
  | 69 => ⟨S20000x256, .f32⟩
  | 70 => ⟨S20000x256, .f32⟩
  | 71 => ⟨S1x256x256, .f32⟩
  | 72 => ⟨S256x256, .f32⟩
  | 73 => ⟨S20000x256, .f32⟩
  | 74 => ⟨S1x256, .f32⟩
  | 75 => ⟨S256, .f32⟩
  | 76 => ⟨S1x256, .f32⟩
  | 77 => ⟨S20000x256, .f32⟩
  | 78 => ⟨S20000x256, .f32⟩
  | 79 => ⟨S_, .f32⟩
  | 80 => ⟨S20000x256, .f32⟩
  | 81 => ⟨S20000x256, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x256, .f32⟩
  | 91 => ⟨S_, .f32⟩
  | 92 => ⟨S20000x256, .f32⟩
  | 93 => ⟨S320000x1, .i32⟩
  | 94 => ⟨S20000x256, .f32⟩
  | 95 => ⟨S20000x256, .f32⟩
  | 96 => ⟨S1x256x256, .f32⟩
  | 97 => ⟨S256x256, .f32⟩
  | 98 => ⟨S20000x256, .f32⟩
  | 99 => ⟨S1x256, .f32⟩
  | 100 => ⟨S256, .f32⟩
  | 101 => ⟨S1x256, .f32⟩
  | 102 => ⟨S20000x256, .f32⟩
  | 103 => ⟨S20000x256, .f32⟩
  | 104 => ⟨S_, .f32⟩
  | 105 => ⟨S20000x256, .f32⟩
  | 106 => ⟨S20000x256, .f32⟩
  | 107 => ⟨S1x256x256, .f32⟩
  | 108 => ⟨S256x256, .f32⟩
  | 109 => ⟨S20000x256, .f32⟩
  | 110 => ⟨S1x256, .f32⟩
  | 111 => ⟨S256, .f32⟩
  | 112 => ⟨S1x256, .f32⟩
  | 113 => ⟨S20000x256, .f32⟩
  | 114 => ⟨S20000x256, .f32⟩
  | 115 => ⟨S_, .f32⟩
  | 116 => ⟨S20000x256, .f32⟩
  | 117 => ⟨S20000x256, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x256, .f32⟩
  | 127 => ⟨S_, .f32⟩
  | _ => ⟨S20000x256, .f32⟩

abbrev hbmTy0_1 (i : Nat) : BufTy := match i % 128 with
  | 0 => ⟨S20000x256, .f32⟩
  | 1 => ⟨S320000x1, .i32⟩
  | 2 => ⟨S20000x256, .f32⟩
  | 3 => ⟨S20000x256, .f32⟩
  | 4 => ⟨S1x256x256, .f32⟩
  | 5 => ⟨S256x256, .f32⟩
  | 6 => ⟨S20000x256, .f32⟩
  | 7 => ⟨S1x256, .f32⟩
  | 8 => ⟨S256, .f32⟩
  | 9 => ⟨S1x256, .f32⟩
  | 10 => ⟨S20000x256, .f32⟩
  | 11 => ⟨S20000x256, .f32⟩
  | 12 => ⟨S_, .f32⟩
  | 13 => ⟨S20000x256, .f32⟩
  | 14 => ⟨S20000x256, .f32⟩
  | 15 => ⟨S1x256x256, .f32⟩
  | 16 => ⟨S256x256, .f32⟩
  | 17 => ⟨S20000x256, .f32⟩
  | 18 => ⟨S1x256, .f32⟩
  | 19 => ⟨S256, .f32⟩
  | 20 => ⟨S1x256, .f32⟩
  | 21 => ⟨S20000x256, .f32⟩
  | 22 => ⟨S20000x256, .f32⟩
  | 23 => ⟨S_, .f32⟩
  | 24 => ⟨S128x256, .f32⟩
  | 25 => ⟨S20000x1, .i32⟩
  | 26 => ⟨S128x256, .f32⟩
  | 27 => ⟨S128x64, .f32⟩
  | 28 => ⟨S1x64, .f32⟩
  | 29 => ⟨S128x64, .f32⟩
  | 30 => ⟨S128x64, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_c_8 : Ref sig .tc := ⟨.hbm, 82, rfl⟩
abbrev main_v62 : Ref sig .tc := ⟨.hbm, 83, rfl⟩
abbrev main_v63 : Ref sig .tc := ⟨.hbm, 84, rfl⟩
abbrev main_c_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_c_13 : Ref sig .tc := ⟨.hbm, 118, rfl⟩
abbrev main_v93 : Ref sig .tc := ⟨.hbm, 119, rfl⟩
abbrev main_v94 : Ref sig .tc := ⟨.hbm, 120, rfl⟩
abbrev main_c_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_16 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_17 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S20000_S20000x1_0 : S20000.BroadcastsInDim S20000x1 (![0] : Fin 1 → Fin S20000x1.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  scatter_S128x256_S20000x1_S20000x256_1_0_0_1_wf : ScatterDims.WF S128x256 S20000x1 S20000x256 [1] [0] [0] 1
  dot_S128x256_S256x64_S128x64_1_0_0_1_n_n_wf : DotDims.WF S128x256 S256x64 S128x64 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

class Facts : Prop extends Facts₀ where

variable [Facts]
-- ==== Proof.Mlp.lean ====
/-
  One row of a two-layer perceptron over the extended reals, and the contraction of a plain
  rows-by-256 times 256-by-256 matrix product read as a sum over the 256 shared coordinates.

  A graph-isomorphism layer updates a node's row `z` (its own features plus the sum of its
  in-neighbours') to `relu (z · W₁ + b₁) · W₂ + b₂`.  Both programs compute exactly this per
  row; they differ only in how the rows are cut into blocks and in which matrix product they
  call.  On the extended reals each of those products is the plain finite sum below, so the
  two sides meet at `mlpRow`.
-/
import Idealize.ShloMosaic.Lib.ValueIdx
import Idealize.ShloMosaic.Lib.Pipeline.Value
import Idealize.ShloMosaic.PureOps.Ideal.Laws

noncomputable section

open scoped BigOperators

namespace Cert.Mlp

open Idealize.ShloMosaic Idealize.ShloMosaic.ValueIdx

/-- Entry `q` of `relu (z · W₁ + b₁) · W₂ + b₂` for one row `z`: the hidden unit `k` is
    `max (∑ l, z l · W₁ l k + b₁ k) 0`, and the output sums the hidden units against column `q` of `W₂`. -/
def mlpRow (z : Fin 256 → EReal) (w1 : Fin 256 → Fin 256 → EReal) (b1 : Fin 256 → EReal)
    (w2 : Fin 256 → Fin 256 → EReal) (b2 : Fin 256 → EReal) (q : Fin 256) : EReal :=
  (∑ k : Fin 256, max ((∑ l : Fin 256, z l * w1 l k) + b1 k) 0 * w2 k q) + b2 q

/-- The row function depends only on the values of its arguments. -/
theorem mlpRow_congr {z z' : Fin 256 → EReal} {w1 w1' : Fin 256 → Fin 256 → EReal} {b1 b1' : Fin 256 → EReal}
    {w2 w2' : Fin 256 → Fin 256 → EReal} {b2 b2' : Fin 256 → EReal}
    (hz : ∀ l, z l = z' l) (hw1 : ∀ l k, w1 l k = w1' l k) (hb1 : ∀ k, b1 k = b1' k)
    (hw2 : ∀ k c, w2 k c = w2' k c) (hb2 : ∀ c, b2 c = b2' c) (q : Fin 256) :
    mlpRow z w1 b1 w2 b2 q = mlpRow z' w1' b1' w2' b2' q := by
  rw [show z = z' from funext hz, show w1 = w1' from funext fun l => funext (hw1 l), show b1 = b1' from funext hb1,
    show w2 = w2' from funext fun k => funext (hw2 k), show b2 = b2' from funext hb2]

/-- The contraction of an `M × 256` by `256 × 256` product, at row `p` and column `q`: the sum over the
    shared coordinate `k` of the left operand at `(p, k)` times the right at `(k, q)`. The contraction index
    set has one axis of extent 256; it is re-indexed by that axis's coordinate. -/
theorem plain_sum (M : Nat) (l : (⟨2, ![M, 256]⟩ : Shape).Idx → EReal) (r : (⟨2, ![256, 256]⟩ : Shape).Idx → EReal)
    (p : Fin M) (q : Fin 256) :
    (∑ k : (DotDims.plain M 256 256).contr.Idx,
        l ((DotDims.plain M 256 256).lhsIdx (ix2 p q) k) * r ((DotDims.plain M 256 256).rhsIdx (ix2 p q) k))
      = ∑ k : Fin 256, l (ix2 p k) * r (ix2 k q) := by
  rw [← Equiv.sum_comp (contrEquiv1 (DotDims.plain M 256 256) 256 rfl rfl).symm]
  refine Finset.sum_congr rfl fun k _ => ?_
  have hk := contrEquiv1_symm_val (DotDims.plain M 256 256) 256 rfl rfl k
  have el : (DotDims.plain M 256 256).lhsIdx (ix2 p q) ((contrEquiv1 (DotDims.plain M 256 256) 256 rfl rfl).symm k) = ix2 p k :=
    funext fun a => Fin.ext (by
      match a with
      | ⟨0, _⟩ => rfl
      | ⟨1, _⟩ => exact ((DotDims.plain M 256 256).lhsIdx_val_of_single rfl _ _).trans hk)
  have er : (DotDims.plain M 256 256).rhsIdx (ix2 p q) ((contrEquiv1 (DotDims.plain M 256 256) 256 rfl rfl).symm k) = ix2 k q :=
    funext fun a => Fin.ext (by
      match a with
      | ⟨0, _⟩ => exact ((DotDims.plain M 256 256).rhsIdx_val_of_single rfl _ _).trans hk
      | ⟨1, _⟩ => rfl)
  rw [el, er]

/-- The same at the 2000 rows of one block. -/
theorem plain_sum_2000 (l : (⟨2, ![2000, 256]⟩ : Shape).Idx → EReal) (r : (⟨2, ![256, 256]⟩ : Shape).Idx → EReal)
    (p : Fin 2000) (q : Fin 256) :
    (∑ k : (DotDims.plain 2000 256 256).contr.Idx,
        l ((DotDims.plain 2000 256 256).lhsIdx (ix2 p q) k) * r ((DotDims.plain 2000 256 256).rhsIdx (ix2 p q) k))
      = ∑ k : Fin 256, l (ix2 p k) * r (ix2 k q) := plain_sum 2000 l r p q

/-- The same at the 20000 rows of the whole node array. -/
theorem plain_sum_20000 (l : (⟨2, ![20000, 256]⟩ : Shape).Idx → EReal) (r : (⟨2, ![256, 256]⟩ : Shape).Idx → EReal)
    (p : Fin 20000) (q : Fin 256) :
    (∑ k : (DotDims.plain 20000 256 256).contr.Idx,
        l ((DotDims.plain 20000 256 256).lhsIdx (ix2 p q) k) * r ((DotDims.plain 20000 256 256).rhsIdx (ix2 p q) k))
      = ∑ k : Fin 256, l (ix2 p k) * r (ix2 k q) := plain_sum 20000 l r p q

end Cert.Mlp

end
-- ==== Proof.RefLayer.lean ====
/-
  One layer of the reference on whole arrays, read at one entry.

  The reference updates all 20000 node rows at once: `relu ((h + agg) · W₁ + b₁) · W₂ + b₂`, with the host's
  matrix product and the bias rows broadcast down the rows.  On the extended reals the host's product
  is the plain sum over the 256 shared coordinates, so entry `(r, q)` is `mlpRow` of row `r` of `h + agg`:
  the same function the kernel's blocks compute.
-/
import proofs.«101399_j85624468013528_1_alg».proof.ReferenceIdeal
import proofs.«101399_j85624468013528_1_alg».proof.Proof.Gen.ReferenceIdeal
import proofs.«101399_j85624468013528_1_alg».proof.Proof.Mlp

noncomputable section

open scoped BigOperators

namespace Cert.ReferenceIdeal.Layer

open Cert.ReferenceIdeal Cert.ReferenceIdeal.Gen Idealize.ShloMosaic Idealize.ShloMosaic.ValueIdx Cert.Mlp

/-- The host's matrix product of the node array with a weight matrix, at row `p` and column `q`: the sum over
    the shared coordinate. Its dimension numbers are the plain rows-by-columns ones. -/
theorem dot_nodes {φ₁ φ₂ : FTy} (l : FVec Ideal S20000x256 φ₁) (r : FVec Ideal S256x256 φ₂) (p : Fin 20000) (q : Fin 256) :
    Host.dotGeneral dot_S20000x256_S256x256_S20000x256_1_0_0_1_n_n none l r (ix2 p q)
      = ∑ k : Fin 256, l (ix2 p k) * r (ix2 k q) :=
  (Ideal.dotGeneral_apply dot_S20000x256_S256x256_S20000x256_1_0_0_1_n_n none .single l r (ix2 p q)).trans
    (plain_sum_20000 l r p q)

/-- A bias row broadcast down the 20000 rows reads, at `(p, q)`, the row at `q`. -/
theorem bias_at (b : FVec Ideal S1x256 .f32) (p : Fin 20000) (q : Fin 256) :
    broadcastInDim S20000x256 ![0, 1] bcast_S1x256_S20000x256_0_1 b (ix2 p q) = b (ix2 (0 : Fin 1) q) :=
  broadcastInDim_apply _ bcast_S1x256_S20000x256_0_1 b (ix2 p q) (ix2 (0 : Fin 1) q) (fun a => by
    match a with
    | ⟨0, _⟩ => rfl
    | ⟨1, _⟩ => rfl)

/-- The zero splat is zero at every entry. -/
theorem zeros_at (p : Fin 20000) (q : Fin 256) :
    broadcastInDim S20000x256 ![] bcast_S_S20000x256 (constant (F := Ideal) S_ .f32 0x00000000#32) (ix2 p q) = 0 :=
  (broadcastInDim_apply _ bcast_S_S20000x256 (constant (F := Ideal) S_ .f32 0x00000000#32) (ix2 p q) ix0 (fun a => a.elim0)).trans
    Ideal.ofBits_zero_f32

/-- One layer on whole arrays, in the reference's operations: `h` the node features, `agg` the summed neighbour
    features, `w1`, `w2` the layer's weight matrices and `b1`, `b2` its bias rows. -/
def layer (h agg : FVec Ideal S20000x256 .f32) (w1 : FVec Ideal S256x256 .f32) (b1 : FVec Ideal S1x256 .f32)
    (w2 : FVec Ideal S256x256 .f32) (b2 : FVec Ideal S1x256 .f32) : FVec Ideal S20000x256 .f32 :=
  addf
    (Host.dotGeneral dot_S20000x256_S256x256_S20000x256_1_0_0_1_n_n none
      (maximumf
        (addf (Host.dotGeneral dot_S20000x256_S256x256_S20000x256_1_0_0_1_n_n none (addf h agg) w1)
          (broadcastInDim S20000x256 ![0, 1] bcast_S1x256_S20000x256_0_1 b1))
        (broadcastInDim S20000x256 ![] bcast_S_S20000x256 (constant (F := Ideal) S_ .f32 0x00000000#32)))
      w2)
    (broadcastInDim S20000x256 ![0, 1] bcast_S1x256_S20000x256_0_1 b2)

/-- Entry `(r, q)` of a layer is the perceptron's row function at row `r` of `h + agg`. -/
theorem layer_apply (h agg : FVec Ideal S20000x256 .f32) (w1 : FVec Ideal S256x256 .f32) (b1 : FVec Ideal S1x256 .f32)
    (w2 : FVec Ideal S256x256 .f32) (b2 : FVec Ideal S1x256 .f32) (r : Fin 20000) (q : Fin 256) :
    layer h agg w1 b1 w2 b2 (ix2 r q)
      = mlpRow (fun l => h (ix2 r l) + agg (ix2 r l)) (fun l k => w1 (ix2 l k)) (fun k => b1 (ix2 (0 : Fin 1) k))
          (fun k c => w2 (ix2 k c)) (fun c => b2 (ix2 (0 : Fin 1) c)) q := by
  have hm1 : ∀ k : Fin 256,
      Host.dotGeneral dot_S20000x256_S256x256_S20000x256_1_0_0_1_n_n none (addf h agg) w1 (ix2 r k)
        = ∑ l : Fin 256, (h (ix2 r l) + agg (ix2 r l)) * w1 (ix2 l k) :=
    fun k => dot_nodes (addf h agg) w1 r k
  unfold layer mlpRow
  refine (congrArg₂ (· + ·) (dot_nodes _ w2 r q) (bias_at b2 r q)).trans ?_
  refine congrArg (· + b2 (ix2 (0 : Fin 1) q)) (Finset.sum_congr rfl fun k _ => ?_)
  refine congrArg (· * w2 (ix2 k q)) ?_
  show max (Host.dotGeneral dot_S20000x256_S256x256_S20000x256_1_0_0_1_n_n none (addf h agg) w1 (ix2 r k)
        + broadcastInDim S20000x256 ![0, 1] bcast_S1x256_S20000x256_0_1 b1 (ix2 r k))
      (broadcastInDim S20000x256 ![] bcast_S_S20000x256 (constant (F := Ideal) S_ .f32 0x00000000#32) (ix2 r k)) = _
  rw [hm1 k, bias_at b1 r k, zeros_at r k]

end Cert.ReferenceIdeal.Layer

end
-- ==== Proof.Net.lean ====
/-
  The network as a composition of whole-array functions, in the reference's operations.

  Four graph-isomorphism layers, then a sum over each graph's nodes and a final linear map.  A layer sends the
  node features `h` to `layer h (agg h) W₁ b₁ W₂ b₂`, where `agg h` sums, into each destination node, the rows
  of `h` at the edges' source nodes; a `relu` follows every layer but the last.  `pooled` adds the last layer's
  rows into the 128 graphs by the nodes' graph ids and `out` is `pooled · W_out + b_out`.  The reference's run
  ends with its two results at exactly these terms of its arguments.
-/
import proofs.«101399_j85624468013528_1_alg».proof.Proof.Gen.ReferenceIdeal.Run
import proofs.«101399_j85624468013528_1_alg».proof.Proof.RefLayer

noncomputable section

namespace Cert.ReferenceIdeal.Net

open Cert.ReferenceIdeal Cert.ReferenceIdeal.Gen Cert.ReferenceIdeal.Layer Idealize.ShloMosaic Idealize.ShloMosaic.TcCoe Idealize.SL.Sem

abbrev Nodes : Type := FVec Ideal S20000x256 .f32
abbrev Edges : Type := (⟨S320000, .i32⟩ : BufTy).Contents (Elt Ideal)
abbrev Weights : Type := FVec Ideal S4x256x256 .f32
abbrev Biases : Type := FVec Ideal S4x256 .f32

/-- The all-zero node array. -/
def zeros : Nodes := broadcastInDim S20000x256 ![] bcast_S_S20000x256 (constant (F := Ideal) S_ .f32 0x00000000#32)

/-- The rows to gather: each edge's source node, a negative id counted from the end. -/
def starts (src : Edges) : (⟨S320000x1, .i32⟩ : BufTy).Contents (Elt Ideal) :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32))) src)

/-- The neighbour sum: the source rows of `h` added into the destination nodes. -/
def agg (h : Nodes) (src dst : Edges) : Nodes :=
  Host.scatterAdd scatter_S20000x256_S320000x1_S320000x256_1_0_0_1 zeros
    (broadcastInDim S320000x1 ![0] bcast_S320000_S320000x1_0 dst)
    (Host.gather gather_S20000x256_S320000x1_S320000x256_1_0_n_n_0_1_1256 h (starts src))

/-- The inter-layer activation. -/
def relu (z : Nodes) : Nodes := maximumf z zeros

/-- A bias vector as a one-row matrix. -/
def asRow (b : FVec Ideal S256 .f32) : FVec Ideal S1x256 .f32 := broadcastInDim S1x256 ![1] bcast_S256_S1x256_1 b

/-- One layer from node features, edges, and the layer's weights and bias rows. -/
def step (h : Nodes) (src dst : Edges) (w1 : FVec Ideal S256x256 .f32) (b1 : FVec Ideal S1x256 .f32)
    (w2 : FVec Ideal S256x256 .f32) (b2 : FVec Ideal S1x256 .f32) : Nodes :=
  layer h (agg h src dst) w1 b1 w2 b2

/-- The four layers' weight matrices and bias rows, cut out of the stacked arguments. -/
def w_0 (a : Weights) : FVec Ideal S256x256 .f32 := shapeCast S256x256 (extractStridedSlice S1x256x256 ![0, 0, 0] a slices_S4x256x256_S1x256x256_0_0_0) shapeCasts_S1x256x256_S256x256
def w_1 (a : Weights) : FVec Ideal S256x256 .f32 := shapeCast S256x256 (extractStridedSlice S1x256x256 ![1, 0, 0] a slices_S4x256x256_S1x256x256_1_0_0) shapeCasts_S1x256x256_S256x256
def w_2 (a : Weights) : FVec Ideal S256x256 .f32 := shapeCast S256x256 (extractStridedSlice S1x256x256 ![2, 0, 0] a slices_S4x256x256_S1x256x256_2_0_0) shapeCasts_S1x256x256_S256x256
def w_3 (a : Weights) : FVec Ideal S256x256 .f32 := shapeCast S256x256 (extractStridedSlice S1x256x256 ![3, 0, 0] a slices_S4x256x256_S1x256x256_3_0_0) shapeCasts_S1x256x256_S256x256
def v_0 (a : Biases) : FVec Ideal S256 .f32 := shapeCast S256 (extractStridedSlice S1x256 ![0, 0] a slices_S4x256_S1x256_0_0) shapeCasts_S1x256_S256
def v_1 (a : Biases) : FVec Ideal S256 .f32 := shapeCast S256 (extractStridedSlice S1x256 ![1, 0] a slices_S4x256_S1x256_1_0) shapeCasts_S1x256_S256
def v_2 (a : Biases) : FVec Ideal S256 .f32 := shapeCast S256 (extractStridedSlice S1x256 ![2, 0] a slices_S4x256_S1x256_2_0) shapeCasts_S1x256_S256
def v_3 (a : Biases) : FVec Ideal S256 .f32 := shapeCast S256 (extractStridedSlice S1x256 ![3, 0] a slices_S4x256_S1x256_3_0) shapeCasts_S1x256_S256

/-- The node features after each layer. -/
def h1 (x : Nodes) (src dst : Edges) (W1 : Weights) (B1 : Biases) (W2 : Weights) (B2 : Biases) : Nodes :=
  relu (step x src dst (w_0 W1) (asRow (v_0 B1)) (w_0 W2) (asRow (v_0 B2)))
def h2 (x : Nodes) (src dst : Edges) (W1 : Weights) (B1 : Biases) (W2 : Weights) (B2 : Biases) : Nodes :=
  relu (step (h1 x src dst W1 B1 W2 B2) src dst (w_1 W1) (asRow (v_1 B1)) (w_1 W2) (asRow (v_1 B2)))
def h3 (x : Nodes) (src dst : Edges) (W1 : Weights) (B1 : Biases) (W2 : Weights) (B2 : Biases) : Nodes :=
  relu (step (h2 x src dst W1 B1 W2 B2) src dst (w_2 W1) (asRow (v_2 B1)) (w_2 W2) (asRow (v_2 B2)))
def h4 (x : Nodes) (src dst : Edges) (W1 : Weights) (B1 : Biases) (W2 : Weights) (B2 : Biases) : Nodes :=
  step (h3 x src dst W1 B1 W2 B2) src dst (w_3 W1) (asRow (v_3 B1)) (w_3 W2) (asRow (v_3 B2))

/-- The per-graph sums of the last layer's rows. -/
def pool (z : Nodes) (gid : (⟨S20000, .i32⟩ : BufTy).Contents (Elt Ideal)) : FVec Ideal S128x256 .f32 :=
  Host.scatterAdd scatter_S128x256_S20000x1_S20000x256_1_0_0_1
    (broadcastInDim S128x256 ![] bcast_S_S128x256 (constant (F := Ideal) S_ .f32 0x00000000#32))
    (broadcastInDim S20000x1 ![0] bcast_S20000_S20000x1_0 gid) z

/-- The final linear map on the pooled rows. -/
def head (p : FVec Ideal S128x256 .f32) (Wout : FVec Ideal S256x64 .f32) (bout : FVec Ideal S64 .f32) : FVec Ideal S128x64 .f32 :=
  addf (Host.dotGeneral dot_S128x256_S256x64_S128x64_1_0_0_1_n_n none p Wout)
    (broadcastInDim S128x64 ![0, 1] bcast_S1x64_S128x64_0_1 (broadcastInDim S1x64 ![1] bcast_S64_S1x64_1 bout))

variable (m : (ℓ : Loc nD τ sig) → Buf (Elt Ideal) ℓ) (c : Dev nD)

/-- The reference's second result is the pooled array of the network. -/
theorem res_pooled : Value.res_main_v124 (F := Ideal) m c
    = pool (h4 (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg3)) := by
  unfold Value.res_main_v124
  rfl

/-- The reference's first result is the head applied to the pooled array. -/
theorem res_out : Value.res_main_v128 (F := Ideal) m c
    = head (pool (h4 (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg3))) (m ((c.tc : Thread nD τ).loc main_arg8)) (m ((c.tc : Thread nD τ).loc main_arg9)) := by
  unfold Value.res_main_v128
  rfl

end Cert.ReferenceIdeal.Net

end
-- ==== Proof.Carry.lean ====
/-
  Buffers that pass unchanged through @main's segments.

  A host stretch changes only the buffers its operations write, and a kernel region only its own output array.
  The edge arrays, the bias stacks, the graph ids, the final linear map's parameters and the two weight stacks
  converted once at the start are written by no later segment, so at every later segment boundary they hold what
  they held after the first stretch: the launch contents for an argument, the converted weights for the other two.
-/
import proofs.«101399_j85624468013528_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers each host stretch writes. -/
abbrev writes0 : List (Ref sig .tc) := [main_v0, main_v1, main_c, main_v2, main_v3, main_c_0, main_v4, main_v5, main_v6, main_v7, main_v8, main_cst, main_v9, main_v10, main_v11, main_v12, main_v13, main_v14, main_v15, main_v16, main_v17, main_v18, main_v19, main_v20, main_v21]
abbrev writes1 : List (Ref sig .tc) := [main_cst_1, main_v23, main_v24, main_c_2, main_v25, main_v26, main_c_3, main_v27, main_v28, main_v29, main_v30, main_v31, main_cst_4, main_v32, main_v33, main_v34, main_v35, main_v36, main_v37, main_v38, main_v39, main_v40, main_v41, main_v42, main_v43, main_v44]
abbrev writes2 : List (Ref sig .tc) := [main_cst_5, main_v46, main_v47, main_c_6, main_v48, main_v49, main_c_7, main_v50, main_v51, main_v52, main_v53, main_v54, main_cst_8, main_v55, main_v56, main_v57, main_v58, main_v59, main_v60, main_v61, main_v62, main_v63, main_v64, main_v65, main_v66, main_v67]
abbrev writes3 : List (Ref sig .tc) := [main_cst_9, main_v69, main_v70, main_c_10, main_v71, main_v72, main_c_11, main_v73, main_v74, main_v75, main_v76, main_v77, main_cst_12, main_v78, main_v79, main_v80, main_v81, main_v82, main_v83, main_v84, main_v85, main_v86, main_v87, main_v88, main_v89, main_v90]
abbrev writes4 : List (Ref sig .tc) := [main_cst_13, main_v92, main_v93, main_v94, main_v95, main_v96, main_v97, main_v98]

theorem writes0_sub : (hostOps0 : List (HloOp τ sig (Elt F))).Forall fun op => op.writes ⊆ (writes0.map (Proc.devRef (τ := τ) .tc)).toFinset := by
  simp only [hostOps0, List.Forall, nullary_writes, unary_writes, binary_writes, ternary_writes, reshape_writes]
  repeat' apply And.intro
  all_goals exact single_sub (by decide)

/-- A buffer stretch 0 does not write keeps its contents through it. -/
theorem skip0 (V : Valuation τ sig (Elt F)) {r : Ref sig .tc} (hr : r ∉ writes0) :
    after hostOps0 V (Proc.devRef .tc r) = V (Proc.devRef .tc r) :=
  after_of_writes_sub hostOps0 V writes0_sub hr

theorem writes1_sub : (hostOps1 : List (HloOp τ sig (Elt F))).Forall fun op => op.writes ⊆ (writes1.map (Proc.devRef (τ := τ) .tc)).toFinset := by
  simp only [hostOps1, List.Forall, nullary_writes, unary_writes, binary_writes, ternary_writes, reshape_writes]
  repeat' apply And.intro
  all_goals exact single_sub (by decide)

/-- A buffer stretch 1 does not write keeps its contents through it. -/
theorem skip1 (V : Valuation τ sig (Elt F)) {r : Ref sig .tc} (hr : r ∉ writes1) :
    after hostOps1 V (Proc.devRef .tc r) = V (Proc.devRef .tc r) :=
  after_of_writes_sub hostOps1 V writes1_sub hr

theorem writes2_sub : (hostOps2 : List (HloOp τ sig (Elt F))).Forall fun op => op.writes ⊆ (writes2.map (Proc.devRef (τ := τ) .tc)).toFinset := by
  simp only [hostOps2, List.Forall, nullary_writes, unary_writes, binary_writes, ternary_writes, reshape_writes]
  repeat' apply And.intro
  all_goals exact single_sub (by decide)

/-- A buffer stretch 2 does not write keeps its contents through it. -/
theorem skip2 (V : Valuation τ sig (Elt F)) {r : Ref sig .tc} (hr : r ∉ writes2) :
    after hostOps2 V (Proc.devRef .tc r) = V (Proc.devRef .tc r) :=
  after_of_writes_sub hostOps2 V writes2_sub hr

theorem writes3_sub : (hostOps3 : List (HloOp τ sig (Elt F))).Forall fun op => op.writes ⊆ (writes3.map (Proc.devRef (τ := τ) .tc)).toFinset := by
  simp only [hostOps3, List.Forall, nullary_writes, unary_writes, binary_writes, ternary_writes, reshape_writes]
  repeat' apply And.intro
  all_goals exact single_sub (by decide)

/-- A buffer stretch 3 does not write keeps its contents through it. -/
theorem skip3 (V : Valuation τ sig (Elt F)) {r : Ref sig .tc} (hr : r ∉ writes3) :
    after hostOps3 V (Proc.devRef .tc r) = V (Proc.devRef .tc r) :=
  after_of_writes_sub hostOps3 V writes3_sub hr

theorem writes4_sub : (hostOps4 : List (HloOp τ sig (Elt F))).Forall fun op => op.writes ⊆ (writes4.map (Proc.devRef (τ := τ) .tc)).toFinset := by
  simp only [hostOps4, List.Forall, nullary_writes, unary_writes, binary_writes, ternary_writes, reshape_writes]
  repeat' apply And.intro
  all_goals exact single_sub (by decide)

/-- A buffer stretch 4 does not write keeps its contents through it. -/
theorem skip4 (V : Valuation τ sig (Elt F)) {r : Ref sig .tc} (hr : r ∉ writes4) :
    after hostOps4 V (Proc.devRef .tc r) = V (Proc.devRef .tc r) :=
  after_of_writes_sub hostOps4 V writes4_sub hr

variable (m : (ℓ : Loc nD τ sig) → Buf (Elt F) ℓ) (ρ : Dev nD → PrngReg) (c : Dev nD)

/-- An argument no operation of the first stretch writes holds its launch contents after it. -/
theorem W1_arg {r : Ref sig .tc} (hr : r ∉ writes0) : W1 m ρ c (Proc.devRef .tc r) = m ((c : Thread nD τ).loc r) :=
  skip0 (W0 m ρ c) hr

/-- From the first layer's exit on, a buffer no later segment writes holds what it held after the first stretch. -/
theorem to2 {r : Ref sig .tc} (g0 : ∀ w, Pipeline.arrRef spec0 w ≠ r) :
    W2 m ρ c (Proc.devRef .tc r) = W1 m ρ c (Proc.devRef .tc r) := W2_of_ne m ρ c r g0
theorem to3 {r : Ref sig .tc} (g0 : ∀ w, Pipeline.arrRef spec0 w ≠ r) (h1 : r ∉ writes1) :
    W3 m ρ c (Proc.devRef .tc r) = W1 m ρ c (Proc.devRef .tc r) := (skip1 (W2 m ρ c) h1).trans (to2 m ρ c g0)
theorem to4 {r : Ref sig .tc} (g0 : ∀ w, Pipeline.arrRef spec0 w ≠ r) (h1 : r ∉ writes1) (g1 : ∀ w, Pipeline.arrRef spec1 w ≠ r) :
    W4 m ρ c (Proc.devRef .tc r) = W1 m ρ c (Proc.devRef .tc r) := (W4_of_ne m ρ c r g1).trans (to3 m ρ c g0 h1)
theorem to5 {r : Ref sig .tc} (g0 : ∀ w, Pipeline.arrRef spec0 w ≠ r) (h1 : r ∉ writes1) (g1 : ∀ w, Pipeline.arrRef spec1 w ≠ r)
    (h2 : r ∉ writes2) :
    W5 m ρ c (Proc.devRef .tc r) = W1 m ρ c (Proc.devRef .tc r) := (skip2 (W4 m ρ c) h2).trans (to4 m ρ c g0 h1 g1)
theorem to6 {r : Ref sig .tc} (g0 : ∀ w, Pipeline.arrRef spec0 w ≠ r) (h1 : r ∉ writes1) (g1 : ∀ w, Pipeline.arrRef spec1 w ≠ r)
    (h2 : r ∉ writes2) (g2 : ∀ w, Pipeline.arrRef spec2 w ≠ r) :
    W6 m ρ c (Proc.devRef .tc r) = W1 m ρ c (Proc.devRef .tc r) := (W6_of_ne m ρ c r g2).trans (to5 m ρ c g0 h1 g1 h2)
theorem to7 {r : Ref sig .tc} (g0 : ∀ w, Pipeline.arrRef spec0 w ≠ r) (h1 : r ∉ writes1) (g1 : ∀ w, Pipeline.arrRef spec1 w ≠ r)
    (h2 : r ∉ writes2) (g2 : ∀ w, Pipeline.arrRef spec2 w ≠ r) (h3 : r ∉ writes3) :
    W7 m ρ c (Proc.devRef .tc r) = W1 m ρ c (Proc.devRef .tc r) := (skip3 (W6 m ρ c) h3).trans (to6 m ρ c g0 h1 g1 h2 g2)
theorem to8 {r : Ref sig .tc} (g0 : ∀ w, Pipeline.arrRef spec0 w ≠ r) (h1 : r ∉ writes1) (g1 : ∀ w, Pipeline.arrRef spec1 w ≠ r)
    (h2 : r ∉ writes2) (g2 : ∀ w, Pipeline.arrRef spec2 w ≠ r) (h3 : r ∉ writes3) (g3 : ∀ w, Pipeline.arrRef spec3 w ≠ r) :
    W8 m ρ c (Proc.devRef .tc r) = W1 m ρ c (Proc.devRef .tc r) := (W8_of_ne m ρ c r g3).trans (to7 m ρ c g0 h1 g1 h2 g2 h3)

end Cert.KernelIdeal.Carry

end
-- ==== Proof.Rows.lean ====
/-
  A vector of 256 entries made into a one-row matrix in two ways: by a reshape that adds a leading unit axis, and
  by a broadcast along a new leading axis of extent one.  Both read, at `(0, k)`, the vector at `k`.
-/
import Idealize.ShloMosaic.Lib.ValueIdx
import Idealize.ShloMosaic.Lib.ValueLayout
import Idealize.ShloMosaic.Lib.Pipeline.Value

noncomputable section

namespace Cert.Rows

open Idealize.ShloMosaic Idealize.ShloMosaic.ValueIdx

/-- The reshape of a 256-vector to one row is its broadcast to one row. -/
theorem reshape_eq_broadcast {α : Type} (b : (⟨1, ![256]⟩ : Shape).Idx → α)
    (h : (⟨1, ![256]⟩ : Shape).ShapeCasts ⟨2, ![1, 256]⟩)
    (h' : (⟨1, ![256]⟩ : Shape).BroadcastsInDim ⟨2, ![1, 256]⟩ (![1] : Fin 1 → Fin 2)) :
    shapeCast ⟨2, ![1, 256]⟩ b h = broadcastInDim ⟨2, ![1, 256]⟩ ![1] h' b := by
  funext i
  obtain ⟨u, k, rfl⟩ : ∃ (u : Fin 1) (k : Fin 256), i = ix2 u k := ⟨i 0, i 1, eq_ix2 i⟩
  rw [shapeCast_a_1a_apply b h u k]
  exact (broadcastInDim_apply (![1] : Fin 1 → Fin 2) h' b (ix2 u k) (ix1 k) (fun a => by
    match a with
    | ⟨0, _⟩ => rfl)).symm

end Cert.Rows

end
-- ==== Proof.KBody.lean ====
/-
  What one grid point of a layer's kernel computes, read at one entry.

  At a grid point the body loads a 2000-row block of the node features `x0`, the same block of the
  aggregated neighbour features `x1`, the two 256 × 256 weight matrices `x2`, `x4` and the two bias
  rows `x3`, `x5`, and stores `relu ((x0 + x1) · x2 + x3) · x4 + x5`.  On the extended reals the two
  roundings to a 16-bit format are the identity and each matrix product into a zero accumulator is
  the plain sum over the 256 shared coordinates, so entry `(p, q)` of the stored block is `mlpRow` of
  row `p` of `x0 + x1`.  The four layers' bodies are the same term up to identity shape casts.
-/
import proofs.«101399_j85624468013528_1_alg».proof.Proof.Gen.KernelIdeal.Skeleton
import proofs.«101399_j85624468013528_1_alg».proof.Proof.Mlp
import Idealize.ShloMosaic.Lib.ValueLayout

noncomputable section

open scoped BigOperators

namespace Cert.KernelIdeal.Body

open Cert.KernelIdeal Cert.KernelIdeal.Gen Idealize.ShloMosaic Idealize.ShloMosaic.ValueIdx Cert.Mlp

/-- A block's matrix product into the zero accumulator, at row `p` and column `q`: the sum over the shared
    coordinate. The product's dimension numbers are the plain rows-by-columns ones. -/
theorem matmul_block {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) :=
  (Ideal.matmul_constant_zero_apply dot_S2000x256_S256x256_S2000x256_1_0_0_1_n_n none l r (ix2 p q)).trans
    (plain_sum_2000 l r p q)

/-- The body's arithmetic with the identity shape casts removed. -/
def core (x0 x1 : FVec Ideal S2000x256 .f32) (x2 : FVec Ideal S256x256 .bf16) (x3 : FVec Ideal S1x256 .f32)
    (x4 : FVec Ideal S256x256 .bf16) (x5 : FVec Ideal S1x256 .f32) : FVec Ideal S2000x256 .f32 :=
  addf
    (matmul dot_S2000x256_S256x256_S2000x256_1_0_0_1_n_n none
      (truncf .bf16
        (maximumf
          (addf
            (matmul dot_S2000x256_S256x256_S2000x256_1_0_0_1_n_n none (truncf .bf16 (addf x0 x1) bitsLt_bf16_f32) x2
              (constant (F := Ideal) S2000x256 .f32 0x00000000#32))
            (broadcastTo S2000x256 x3 broadcasts_S1x256_S2000x256))
          (broadcast S2000x256 (Scalar.ofBits (F := Ideal) .f32 0x00000000#32)))
        bitsLt_bf16_f32)
      x4 (constant (F := Ideal) S2000x256 .f32 0x00000000#32))
    (broadcastTo S2000x256 x5 broadcasts_S1x256_S2000x256)

/-- Entry `(p, q)` of the stored block is the perceptron's row function at row `p` of `x0 + x1`. -/
theorem core_apply (x0 x1 : FVec Ideal S2000x256 .f32) (x2 : FVec Ideal S256x256 .bf16) (x3 : FVec Ideal S1x256 .f32)
    (x4 : FVec Ideal S256x256 .bf16) (x5 : FVec Ideal S1x256 .f32) (p : Fin 2000) (q : Fin 256) :
    core x0 x1 x2 x3 x4 x5 (ix2 p q)
      = mlpRow (fun l => x0 (ix2 p l) + x1 (ix2 p l)) (fun l k => x2 (ix2 l k)) (fun k => x3 (ix2 (0 : Fin 1) k))
          (fun k c => x4 (ix2 k c)) (fun c => x5 (ix2 (0 : Fin 1) c)) q := by
  have hb1 : ∀ k : Fin 256, broadcastTo S2000x256 x3 broadcasts_S1x256_S2000x256 (ix2 p k) = x3 (ix2 (0 : Fin 1) k) :=
    fun k => broadcastTo_1b_ab_apply x3 _ p k
  have hb2 : broadcastTo S2000x256 x5 broadcasts_S1x256_S2000x256 (ix2 p q) = x5 (ix2 (0 : Fin 1) q) :=
    broadcastTo_1b_ab_apply x5 _ p q
  have hm1 : ∀ k : Fin 256,
      matmul dot_S2000x256_S256x256_S2000x256_1_0_0_1_n_n none (truncf .bf16 (addf x0 x1) bitsLt_bf16_f32) x2
          (constant (F := Ideal) S2000x256 .f32 0x00000000#32) (ix2 p k)
        = ∑ l : Fin 256, (x0 (ix2 p l) + x1 (ix2 p l)) * x2 (ix2 l k) :=
    fun k => matmul_block (truncf .bf16 (addf x0 x1) bitsLt_bf16_f32) x2 p k
  unfold core mlpRow
  refine (congrArg₂ (· + ·) (matmul_block _ x4 p q) hb2).trans ?_
  refine congrArg (· + x5 (ix2 (0 : Fin 1) q)) (Finset.sum_congr rfl fun k _ => ?_)
  refine congrArg (· * x4 (ix2 k q)) ?_
  show max (matmul dot_S2000x256_S256x256_S2000x256_1_0_0_1_n_n none (truncf .bf16 (addf x0 x1) bitsLt_bf16_f32) x2
          (constant (F := Ideal) S2000x256 .f32 0x00000000#32) (ix2 p k)
        + broadcastTo S2000x256 x3 broadcasts_S1x256_S2000x256 (ix2 p k)) (Ideal.ofBits .f32 0x00000000#32) = _
  rw [hm1 k, hb1 k, Ideal.ofBits_zero_f32]

/-- Layer 0's stored value is the core term. -/
theorem pay0_eq (x0 x1 : Vec Ideal S2000x256 .f32) (x2 : Vec Ideal S256x256 .bf16) (x3 : Vec Ideal S1x256 .f32)
    (x4 : Vec Ideal S256x256 .bf16) (x5 : Vec Ideal S1x256 .f32) :
    k0_pay1 (F := Ideal) x0 x1 x2 x3 x4 x5 = core x0 x1 x2 x3 x4 x5 := by
  unfold k0_pay1 core
  simp only [shapeCast_self]

/-- Layer 1's stored value is the core term. -/
theorem pay1_eq (x0 x1 : Vec Ideal S2000x256 .f32) (x2 : Vec Ideal S256x256 .bf16) (x3 : Vec Ideal S1x256 .f32)
    (x4 : Vec Ideal S256x256 .bf16) (x5 : Vec Ideal S1x256 .f32) :
    k1_pay1 (F := Ideal) x0 x1 x2 x3 x4 x5 = core x0 x1 x2 x3 x4 x5 := by
  unfold k1_pay1 core
  simp only [shapeCast_self]

/-- Layer 2's stored value is the core term. -/
theorem pay2_eq (x0 x1 : Vec Ideal S2000x256 .f32) (x2 : Vec Ideal S256x256 .bf16) (x3 : Vec Ideal S1x256 .f32)
    (x4 : Vec Ideal S256x256 .bf16) (x5 : Vec Ideal S1x256 .f32) :
    k2_pay1 (F := Ideal) x0 x1 x2 x3 x4 x5 = core x0 x1 x2 x3 x4 x5 := by
  unfold k2_pay1 core
  simp only [shapeCast_self]

/-- Layer 3's stored value is the core term. -/
theorem pay3_eq (x0 x1 : Vec Ideal S2000x256 .f32) (x2 : Vec Ideal S256x256 .bf16) (x3 : Vec Ideal S1x256 .f32)
    (x4 : Vec Ideal S256x256 .bf16) (x5 : Vec Ideal S1x256 .f32) :
    k3_pay1 (F := Ideal) x0 x1 x2 x3 x4 x5 = core x0 x1 x2 x3 x4 x5 := by
  unfold k3_pay1 core
  simp only [shapeCast_self]

end Cert.KernelIdeal.Body

end
-- ==== Proof.Region0.lean ====
/-
  Layer 0's kernel, from blocks to the whole array.

  The kernel runs over 10 grid points; point `t` reads rows `2000 t … 2000 t + 1999` of the node features and of
  the aggregated neighbour features, the whole weight matrices and bias rows, and writes the same rows of the
  output.  Entry `(p, q)` of the block it writes is the perceptron's row function of row `p` of the two input
  blocks, which is row `2000 t + p` of the arrays; so every block is a block of ONE function of the arrays as
  the region finds them, `whole`.  The ten blocks tile the 20000 rows (row `r` lies in block `r / 2000`), so
  the output array ends holding `whole`.
-/
import proofs.«101399_j85624468013528_1_alg».proof.Proof.Gen.KernelIdeal.Frame
import proofs.«101399_j85624468013528_1_alg».proof.Proof.KBody
import proofs.«101399_j85624468013528_1_alg».proof.Proof.RefLayer
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.Body Idealize.ShloMosaic.ValueIdx Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The six arrays the region finds, as plain functions into the extended reals: node features, aggregated
    neighbour features, the two weight matrices and the two bias rows. -/
abbrev aFeat (c : Dev nD) : S20000x256.Idx → EReal := V c main_arg0
abbrev aAgg (c : Dev nD) : S20000x256.Idx → EReal := V c main_v11
abbrev aW1 (c : Dev nD) : S256x256.Idx → EReal := V c main_v13
abbrev aB1 (c : Dev nD) : S1x256.Idx → EReal := V c main_v20
abbrev aW2 (c : Dev nD) : S256x256.Idx → EReal := V c main_v17
abbrev aB2 (c : Dev nD) : S1x256.Idx → EReal := V c main_v21

/-- The windows' block indices at a grid point, decided over the ten points: the two row-blocked inputs and the
    output sit at block `t` of the rows, the weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `(r, q)` of the layer's output as a function of the arrays the region finds: the perceptron's row
    function at row `r` of features plus aggregated neighbours. -/
def entry (c : Dev nD) (r : Fin 20000) (q : Fin 256) : EReal :=
  mlpRow
    (fun l => aFeat V c (ix2 r l) + aAgg V c (ix2 r l))
    (fun l k => aW1 V c (ix2 l k))
    (fun k => aB1 V c (ix2 (0 : Fin 1) k))
    (fun k d => aW2 V c (ix2 k d))
    (fun d => aB2 V c (ix2 (0 : Fin 1) d)) q

/-- The layer's output array as one function of the arrays the region finds. -/
def whole (c : Dev nD) : S20000x256.Idx → EReal :=
  fun i => entry V c ⟨(i 0).val, (i 0).isLt⟩ ⟨(i 1).val, (i 1).isLt⟩

theorem whole_at (c : Dev nD) (i : S20000x256.Idx) (r : Fin 20000) (q : Fin 256) (h0 : (i 0).val = r.val) (h1 : (i 1).val = q.val) :
    whole V c i = entry V c r q := by
  unfold whole
  rw [show (⟨(i 0).val, (i 0).isLt⟩ : Fin 20000) = r from Fin.ext h0, show (⟨(i 1).val, (i 1).isLt⟩ : Fin 256) = q from Fin.ext h1]

/-- Row `p` of the feature block at point `t` is row `2000 t + p` of the feature array. -/
theorem blk_feat (c : Dev nD) (t : Fin cfg0.N) (p : Fin 2000) (l : Fin 256) (r : Fin 20000) (hr : r.val = t.val * 2000 + p.val) :
    (iblk0 V c 0 t : Vec Ideal S2000x256 .f32) (ix2 p l) = aFeat V c (ix2 r l) := by
  obtain ⟨e0, e1, -⟩ := idx_facts t
  unfold iblk0
  rw [View.read_apply]
  show aFeat V c _ = _
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * l.val = l.val; omega

/-- Row `p` of the aggregate block at point `t` is row `2000 t + p` of the aggregate array. -/
theorem blk_agg (c : Dev nD) (t : Fin cfg0.N) (p : Fin 2000) (l : Fin 256) (r : Fin 20000) (hr : r.val = t.val * 2000 + p.val) :
    (iblk0 V c 1 t : Vec Ideal S2000x256 .f32) (ix2 p l) = aAgg V c (ix2 r l) := by
  obtain ⟨-, -, e0, e1, -⟩ := idx_facts t
  unfold iblk0
  rw [View.read_apply]
  show aAgg V c _ = _
  refine congrArg _ (funext fun a => Fin.ext ?_)
  match a with
  | ⟨0, _⟩ => show win0_1.index t (0 : Fin 2) * 2000 + 1 * p.val = r.val; omega
  | ⟨1, _⟩ => show win0_1.index t (1 : Fin 2) * 256 + 1 * l.val = l.val; omega

/-- The first weight matrix's one block is the matrix. -/
theorem blk_w1 (c : Dev nD) (t : Fin cfg0.N) (l k : Fin 256) :
    (iblk0 V c 2 t : Vec Ideal S256x256 .bf16) (ix2 l k) = aW1 V c (ix2 l k) := by
  obtain ⟨-, -, -, -, e0, e1, -⟩ := idx_facts t
  unfold iblk0
  rw [View.read_apply]
  show aW1 V c _ = _
  refine congrArg _ (funext fun a => Fin.ext ?_)
  match a with
  | ⟨0, _⟩ => show win0_2.index t (0 : Fin 2) * 256 + 1 * l.val = l.val; omega
  | ⟨1, _⟩ => show win0_2.index t (1 : Fin 2) * 256 + 1 * k.val = k.val; omega

/-- The first bias row's one block is the row. -/
theorem blk_b1 (c : Dev nD) (t : Fin cfg0.N) (k : Fin 256) :
    (iblk0 V c 3 t : Vec Ideal S1x256 .f32) (ix2 (0 : Fin 1) k) = aB1 V c (ix2 (0 : Fin 1) k) := by
  obtain ⟨-, -, -, -, -, -, e0, e1, -⟩ := idx_facts t
  unfold iblk0
  rw [View.read_apply]
  show aB1 V c _ = _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

/-- The second weight matrix's one block is the matrix. -/
theorem blk_w2 (c : Dev nD) (t : Fin cfg0.N) (k d : Fin 256) :
    (iblk0 V c 4 t : Vec Ideal S256x256 .bf16) (ix2 k d) = aW2 V c (ix2 k d) := by
  obtain ⟨-, -, -, -, -, -, -, -, e0, e1, -⟩ := idx_facts t
  unfold iblk0
  rw [View.read_apply]
  show aW2 V c _ = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * d.val = d.val; omega

/-- The second bias row's one block is the row. -/
theorem blk_b2 (c : Dev nD) (t : Fin cfg0.N) (d : Fin 256) :
    (iblk0 V c 5 t : Vec Ideal S1x256 .f32) (ix2 (0 : Fin 1) d) = aB2 V c (ix2 (0 : Fin 1) d) := by
  obtain ⟨-, -, -, -, -, -, -, -, -, -, e0, e1, -⟩ := idx_facts t
  unfold iblk0
  rw [View.read_apply]
  show aB2 V c _ = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * d.val = d.val; omega

/-- What point `t` writes back is block `t` of `whole`. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S2000x256) hz, View.ld_unit_zero (S := S256x256) hz, View.ld_unit_zero (S := S1x256) hz]
  rw [pay0_eq]
  funext j
  obtain ⟨p, q, rfl⟩ : ∃ (p : Fin 2000) (q : Fin 256), j = ix2 p q := ⟨j 0, j 1, eq_ix2 j⟩
  obtain ⟨-, -, -, -, -, -, -, -, -, -, -, -, e0, e1⟩ := idx_facts t
  have hN : cfg0.N = 10 := N_0
  have hrow : t.val * 2000 + p.val < 20000 := by have := t.isLt; have := p.isLt; omega
  show core (iblk0 V c 0 t) (iblk0 V c 1 t) (iblk0 V c 2 t) (iblk0 V c 3 t) (iblk0 V c 4 t) (iblk0 V c 5 t) (ix2 p q)
      = whole V c (((cfg0.win 6).blk t).view.emb (ix2 p q))
  refine ((core_apply _ _ _ _ _ _ p q).trans ?_).trans
    (whole_at V c _ ⟨t.val * 2000 + p.val, hrow⟩ q
      (by show win0_6.index t (0 : Fin 2) * 2000 + 1 * p.val = t.val * 2000 + p.val; omega)
      (by show win0_6.index t (1 : Fin 2) * 256 + 1 * q.val = q.val; omega)).symm
  unfold entry
  exact mlpRow_congr
    (fun l => congrArg₂ (fun a b : EReal => a + b) (blk_feat V c t p l ⟨t.val * 2000 + p.val, hrow⟩ rfl) (blk_agg V c t p l ⟨t.val * 2000 + p.val, hrow⟩ rfl))
    (fun l k => blk_w1 V c t l k) (fun k => blk_b1 V c t k) (fun k d => blk_w2 V c t k d) (fun d => blk_b2 V c t d) q

/-- An index of the output array is in point `t`'s block iff each coordinate is in the block's range on its axis. -/
theorem mem_blk (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v22).slice (win0_6.rect t)).set ↔ _
  rw [View.set_slice_whole, Rect.mem_set_unit]
  exact Iff.rfl

/-- Every index of the output array lies in the block of the point that holds its row. -/
theorem cover (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  have hN : cfg0.N = 10 := N_0
  have ht : (i 0).val / 2000 < cfg0.N := by rw [hN]; omega
  refine ⟨⟨(i 0).val / 2000, ht⟩, flush0_6 _, ?_⟩
  rw [mem_blk]
  obtain ⟨-, -, -, -, -, -, -, -, -, -, -, -, e0, e1⟩ := idx_facts ⟨(i 0).val / 2000, ht⟩
  have e0' : win0_6.index ⟨(i 0).val / 2000, ht⟩ (0 : Fin 2) = (i 0).val / 2000 := e0
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    omega

/-- The output array after the region: `whole` of the arrays the region found. -/
theorem final (c : Dev nD) : (dat0 V c).arrAt 6 cfg0.N = whole V c :=
  (dat0 V c).arrAt_eq_of_cover 6 (whole V c) (fun t _ => flushed_eq V c t) (cover)

/-- `whole` is the reference's layer applied to the arrays the region finds: both are the perceptron's row function
    at every entry. -/
theorem whole_eq_layer (c : Dev nD) :
    whole V c = Cert.ReferenceIdeal.Layer.layer (aFeat V c) (aAgg V c) (aW1 V c) (aB1 V c) (aW2 V c) (aB2 V c) := by
  funext i
  obtain ⟨r, q, rfl⟩ : ∃ (r : Fin 20000) (q : Fin 256), i = ix2 r q := ⟨i 0, i 1, eq_ix2 i⟩
  rw [whole_at V c (ix2 r q) r q rfl rfl]
  exact (Cert.ReferenceIdeal.Layer.layer_apply (aFeat V c) (aAgg V c) (aW1 V c) (aB1 V c) (aW2 V c) (aB2 V c) r q).symm

/-- The output array after the region, as the reference's layer of the arrays the region found. -/
theorem final_layer (c : Dev nD) :
    (dat0 V c).arrAt 6 cfg0.N
      = Cert.ReferenceIdeal.Layer.layer (aFeat V c) (aAgg V c) (aW1 V c) (aB1 V c) (aW2 V c) (aB2 V c) :=
  (final V c).trans (whole_eq_layer V c)

end Cert.KernelIdeal.Region0

end
-- ==== Proof.Stage0.lean ====
/-
  Layer 0: what its kernel finds and what it leaves.

  Before the first kernel the host converts the two weight stacks, gathers and sums the neighbours of the input
  features, and cuts out layer 0's weight matrices and bias rows.  So the kernel finds the input features, their
  neighbour sum, and layer 0's parameters; by the region's closed form it leaves the reference's layer of these.
-/
import proofs.«101399_j85624468013528_1_alg».proof.Proof.Carry
import proofs.«101399_j85624468013528_1_alg».proof.Proof.Rows
import proofs.«101399_j85624468013528_1_alg».proof.Proof.Net
import proofs.«101399_j85624468013528_1_alg».proof.Proof.Region0

set_option maxRecDepth 16384

noncomputable section

namespace Cert.KernelIdeal.Stage0

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem feat : Region0.aFeat (V1 m ρ) c = m ((c : Thread nD τ).loc main_arg0) := W1_arg m ρ c (by decide)

set_option maxHeartbeats 2000000 in
theorem agg : Region0.aAgg (V1 m ρ) c = Cert.ReferenceIdeal.Net.agg (m ((c : Thread nD τ).loc main_arg0)) (m ((c : Thread nD τ).loc main_arg1)) (m ((c : Thread nD τ).loc main_arg2)) := by
  show after hostOps0 (W0 m ρ c) (Proc.devRef .tc main_v11) = _
  after_results_simp
  rfl

theorem w1 : Region0.aW1 (V1 m ρ) c = Cert.ReferenceIdeal.Net.w_0 (m ((c : Thread nD τ).loc main_arg4)) := by
  show after hostOps0 (W0 m ρ c) (Proc.devRef .tc main_v13) = _
  after_results
  rfl

theorem b1 : Region0.aB1 (V1 m ρ) c = Cert.ReferenceIdeal.Net.asRow (Cert.ReferenceIdeal.Net.v_0 (m ((c : Thread nD τ).loc main_arg5))) := by
  show after hostOps0 (W0 m ρ c) (Proc.devRef .tc main_v20) = _
  after_results
  exact Cert.Rows.reshape_eq_broadcast (Cert.ReferenceIdeal.Net.v_0 (m ((c : Thread nD τ).loc main_arg5))) _ _

theorem w2 : Region0.aW2 (V1 m ρ) c = Cert.ReferenceIdeal.Net.w_0 (m ((c : Thread nD τ).loc main_arg6)) := by
  show after hostOps0 (W0 m ρ c) (Proc.devRef .tc main_v17) = _
  after_results
  rfl

theorem b2 : Region0.aB2 (V1 m ρ) c = Cert.ReferenceIdeal.Net.asRow (Cert.ReferenceIdeal.Net.v_0 (m ((c : Thread nD τ).loc main_arg7))) := by
  show after hostOps0 (W0 m ρ c) (Proc.devRef .tc main_v21) = _
  after_results
  exact Cert.Rows.reshape_eq_broadcast (Cert.ReferenceIdeal.Net.v_0 (m ((c : Thread nD τ).loc main_arg7))) _ _

/-- After the first kernel its output buffer holds layer 0 of the input features. -/
theorem out : W2 m ρ c (Proc.devRef .tc main_v22)
    = Cert.ReferenceIdeal.Net.step (m ((c : Thread nD τ).loc main_arg0)) (m ((c : Thread nD τ).loc main_arg1)) (m ((c : Thread nD τ).loc main_arg2))
        (Cert.ReferenceIdeal.Net.w_0 (m ((c : Thread nD τ).loc main_arg4))) (Cert.ReferenceIdeal.Net.asRow (Cert.ReferenceIdeal.Net.v_0 (m ((c : Thread nD τ).loc main_arg5))))
        (Cert.ReferenceIdeal.Net.w_0 (m ((c : Thread nD τ).loc main_arg6))) (Cert.ReferenceIdeal.Net.asRow (Cert.ReferenceIdeal.Net.v_0 (m ((c : Thread nD τ).loc main_arg7)))) := by
  have e : W2 m ρ c (Proc.devRef .tc main_v22) = (dat0 (V1 m ρ) c).arrAt 6 cfg0.N := W2_arr m ρ c 6
  rw [e, Region0.final_layer (V1 m ρ) c, feat m ρ c, agg m ρ c, w1 m ρ c, b1 m ρ c, w2 m ρ c, b2 m ρ c]
  rfl

end Cert.KernelIdeal.Stage0

end
-- ==== Proof.Region1.lean ====
/-
  Layer 1's kernel, from blocks to the whole array.

  The kernel runs over 10 grid points; point `t` reads rows `2000 t … 2000 t + 1999` of the node features and of
  the aggregated neighbour features, the whole weight matrices and bias rows, and writes the same rows of the
  output.  Entry `(p, q)` of the block it writes is the perceptron's row function of row `p` of the two input
  blocks, which is row `2000 t + p` of the arrays; so every block is a block of ONE function of the arrays as
  the region finds them, `whole`.  The ten blocks tile the 20000 rows (row `r` lies in block `r / 2000`), so
  the output array ends holding `whole`.
-/
import proofs.«101399_j85624468013528_1_alg».proof.Proof.Gen.KernelIdeal.Frame
import proofs.«101399_j85624468013528_1_alg».proof.Proof.KBody
import proofs.«101399_j85624468013528_1_alg».proof.Proof.RefLayer
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.Body Idealize.ShloMosaic.ValueIdx Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The six arrays the region finds, as plain functions into the extended reals: node features, aggregated
    neighbour features, the two weight matrices and the two bias rows. -/
abbrev aFeat (c : Dev nD) : S20000x256.Idx → EReal := V c main_v24
abbrev aAgg (c : Dev nD) : S20000x256.Idx → EReal := V c main_v34
abbrev aW1 (c : Dev nD) : S256x256.Idx → EReal := V c main_v36
abbrev aB1 (c : Dev nD) : S1x256.Idx → EReal := V c main_v43
abbrev aW2 (c : Dev nD) : S256x256.Idx → EReal := V c main_v40
abbrev aB2 (c : Dev nD) : S1x256.Idx → EReal := V c main_v44

/-- The windows' block indices at a grid point, decided over the ten points: the two row-blocked inputs and the
    output sit at block `t` of the rows, the weights and biases at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `(r, q)` of the layer's output as a function of the arrays the region finds: the perceptron's row
    function at row `r` of features plus aggregated neighbours. -/
def entry (c : Dev nD) (r : Fin 20000) (q : Fin 256) : EReal :=
  mlpRow
    (fun l => aFeat V c (ix2 r l) + aAgg V c (ix2 r l))
    (fun l k => aW1 V c (ix2 l k))
    (fun k => aB1 V c (ix2 (0 : Fin 1) k))
    (fun k d => aW2 V c (ix2 k d))
    (fun d => aB2 V c (ix2 (0 : Fin 1) d)) q

/-- The layer's output array as one function of the arrays the region finds. -/
def whole (c : Dev nD) : S20000x256.Idx → EReal :=
  fun i => entry V c ⟨(i 0).val, (i 0).isLt⟩ ⟨(i 1).val, (i 1).isLt⟩

theorem whole_at (c : Dev nD) (i : S20000x256.Idx) (r : Fin 20000) (q : Fin 256) (h0 : (i 0).val = r.val) (h1 : (i 1).val = q.val) :
    whole V c i = entry V c r q := by
  unfold whole
  rw [show (⟨(i 0).val, (i 0).isLt⟩ : Fin 20000) = r from Fin.ext h0, show (⟨(i 1).val, (i 1).isLt⟩ : Fin 256) = q from Fin.ext h1]

/-- Row `p` of the feature block at point `t` is row `2000 t + p` of the feature array. -/
theorem blk_feat (c : Dev nD) (t : Fin cfg1.N) (p : Fin 2000) (l : Fin 256) (r : Fin 20000) (hr : r.val = t.val * 2000 + p.val) :
    (iblk1 V c 0 t : Vec Ideal S2000x256 .f32) (ix2 p l) = aFeat V c (ix2 r l) := by
  obtain ⟨e0, e1, -⟩ := idx_facts t
  unfold iblk1
  rw [View.read_apply]
  show aFeat V c _ = _
  refine congrArg _ (funext fun a => Fin.ext ?_)
  match a with
  | ⟨0, _⟩ => show win1_0.index t (0 : Fin 2) * 2000 + 1 * p.val = r.val; omega
  | ⟨1, _⟩ => show win1_0.index t (1 : Fin 2) * 256 + 1 * l.val = l.val; omega

/-- Row `p` of the aggregate block at point `t` is row `2000 t + p` of the aggregate array. -/
theorem blk_agg (c : Dev nD) (t : Fin cfg1.N) (p : Fin 2000) (l : Fin 256) (r : Fin 20000) (hr : r.val = t.val * 2000 + p.val) :
    (iblk1 V c 1 t : Vec Ideal S2000x256 .f32) (ix2 p l) = aAgg V c (ix2 r l) := by
  obtain ⟨-, -, e0, e1, -⟩ := idx_facts t
  unfold iblk1
  rw [View.read_apply]
  show aAgg V c _ = _
  refine congrArg _ (funext fun a => Fin.ext ?_)
  match a with
  | ⟨0, _⟩ => show win1_1.index t (0 : Fin 2) * 2000 + 1 * p.val = r.val; omega
  | ⟨1, _⟩ => show win1_1.index t (1 : Fin 2) * 256 + 1 * l.val = l.val; omega

/-- The first weight matrix's one block is the matrix. -/
theorem blk_w1 (c : Dev nD) (t : Fin cfg1.N) (l k : Fin 256) :
    (iblk1 V c 2 t : Vec Ideal S256x256 .bf16) (ix2 l k) = aW1 V c (ix2 l k) := by
  obtain ⟨-, -, -, -, e0, e1, -⟩ := idx_facts t
  unfold iblk1
  rw [View.read_apply]
  show aW1 V c _ = _
  refine congrArg _ (funext fun a => Fin.ext ?_)
  match a with
  | ⟨0, _⟩ => show win1_2.index t (0 : Fin 2) * 256 + 1 * l.val = l.val; omega
  | ⟨1, _⟩ => show win1_2.index t (1 : Fin 2) * 256 + 1 * k.val = k.val; omega

/-- The first bias row's one block is the row. -/
theorem blk_b1 (c : Dev nD) (t : Fin cfg1.N) (k : Fin 256) :
    (iblk1 V c 3 t : Vec Ideal S1x256 .f32) (ix2 (0 : Fin 1) k) = aB1 V c (ix2 (0 : Fin 1) k) := by
  obtain ⟨-, -, -, -, -, -, e0, e1, -⟩ := idx_facts t
  unfold iblk1
  rw [View.read_apply]
  show aB1 V c _ = _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * k.val = k.val; omega

/-- The second weight matrix's one block is the matrix. -/
theorem blk_w2 (c : Dev nD) (t : Fin cfg1.N) (k d : Fin 256) :
    (iblk1 V c 4 t : Vec Ideal S256x256 .bf16) (ix2 k d) = aW2 V c (ix2 k d) := by
  obtain ⟨-, -, -, -, -, -, -, -, e0, e1, -⟩ := idx_facts t
  unfold iblk1
  rw [View.read_apply]
  show aW2 V c _ = _
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * d.val = d.val; omega

/-- The second bias row's one block is the row. -/
theorem blk_b2 (c : Dev nD) (t : Fin cfg1.N) (d : Fin 256) :
    (iblk1 V c 5 t : Vec Ideal S1x256 .f32) (ix2 (0 : Fin 1) d) = aB2 V c (ix2 (0 : Fin 1) d) := by
  obtain ⟨-, -, -, -, -, -, -, -, -, -, e0, e1, -⟩ := idx_facts t
  unfold iblk1
  rw [View.read_apply]
  show aB2 V c _ = _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * d.val = d.val; omega

/-- What point `t` writes back is block `t` of `whole`. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz, View.ld_unit_zero (S := S1x256) hz]
  rw [pay1_eq]
  funext j
  obtain ⟨p, q, rfl⟩ : ∃ (p : Fin 2000) (q : Fin 256), j = ix2 p q := ⟨j 0, j 1, eq_ix2 j⟩
  obtain ⟨-, -, -, -, -, -, -, -, -, -, -, -, e0, e1⟩ := idx_facts t
  have hN : cfg1.N = 10 := N_1
  have hrow : t.val * 2000 + p.val < 20000 := by have := t.isLt; have := p.isLt; omega
  show core (iblk1 V c 0 t) (iblk1 V c 1 t) (iblk1 V c 2 t) (iblk1 V c 3 t) (iblk1 V c 4 t) (iblk1 V c 5 t) (ix2 p q)
      = whole V c (((cfg1.win 6).blk t).view.emb (ix2 p q))
  refine ((core_apply _ _ _ _ _ _ p q).trans ?_).trans
    (whole_at V c _ ⟨t.val * 2000 + p.val, hrow⟩ q
      (by show win1_6.index t (0 : Fin 2) * 2000 + 1 * p.val = t.val * 2000 + p.val; omega)
      (by show win1_6.index t (1 : Fin 2) * 256 + 1 * q.val = q.val; omega)).symm
  unfold entry
  exact mlpRow_congr
    (fun l => congrArg₂ (fun a b : EReal => a + b) (blk_feat V c t p l ⟨t.val * 2000 + p.val, hrow⟩ rfl) (blk_agg V c t p l ⟨t.val * 2000 + p.val, hrow⟩ rfl))
    (fun l k => blk_w1 V c t l k) (fun k => blk_b1 V c t k) (fun k d => blk_w2 V c t k d) (fun d => blk_b2 V c t d) q

/-- An index of the output array is in point `t`'s block iff each coordinate is in the block's range on its axis. -/
theorem mem_blk (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v45).slice (win1_6.rect t)).set ↔ _
  rw [View.set_slice_whole, Rect.mem_set_unit]
  exact Iff.rfl

/-- Every index of the output array lies in the block of the point that holds its row. -/
theorem cover (i : S20000x256.Idx) :
    ∃ t : Fin cfg1.N, (cfg1.win 6).flush t = true ∧ i ∈ ((cfg1.win 6).blk t).view.set := by
  have hi0 : (i 0).val < 20000 := (i 0).isLt
  have hi1 : (i 1).val < 256 := (i 1).isLt
  have hN : cfg1.N = 10 := N_1
  have ht : (i 0).val / 2000 < cfg1.N := by rw [hN]; omega
  refine ⟨⟨(i 0).val / 2000, ht⟩, flush1_6 _, ?_⟩
  rw [mem_blk]
  obtain ⟨-, -, -, -, -, -, -, -, -, -, -, -, e0, e1⟩ := idx_facts ⟨(i 0).val / 2000, ht⟩
  have e0' : win1_6.index ⟨(i 0).val / 2000, ht⟩ (0 : Fin 2) = (i 0).val / 2000 := e0
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    omega

/-- The output array after the region: `whole` of the arrays the region found. -/
theorem final (c : Dev nD) : (dat1 V c).arrAt 6 cfg1.N = whole V c :=
  (dat1 V c).arrAt_eq_of_cover 6 (whole V c) (fun t _ => flushed_eq V c t) (cover)

/-- `whole` is the reference's layer applied to the arrays the region finds: both are the perceptron's row function
    at every entry. -/
theorem whole_eq_layer (c : Dev nD) :
    whole V c = Cert.ReferenceIdeal.Layer.layer (aFeat V c) (aAgg V c) (aW1 V c) (aB1 V c) (aW2 V c) (aB2 V c) := by
  funext i
  obtain ⟨r, q, rfl⟩ : ∃ (r : Fin 20000) (q : Fin 256), i = ix2 r q := ⟨i 0, i 1, eq_ix2 i⟩
  rw [whole_at V c (ix2 r q) r q rfl rfl]
  exact (Cert.ReferenceIdeal.Layer.layer_apply (aFeat V c) (aAgg V c) (aW1 V c) (aB1 V c) (aW2 V c) (aB2 V c) r q).symm

/-- The output array after the region, as the reference's layer of the arrays the region found. -/
theorem final_layer (c : Dev nD) :
    (dat1 V c).arrAt 6 cfg1.N
      = Cert.ReferenceIdeal.Layer.layer (aFeat V c) (aAgg V c) (aW1 V c) (aB1 V c) (aW2 V c) (aB2 V c) :=
  (final V c).trans (whole_eq_layer V c)

end Cert.KernelIdeal.Region1

end
-- ==== Proof.Stage1.lean ====
/-
  Layer 1: what its kernel finds and what it leaves.

  Between the previous kernel and this one the host applies the inter-layer activation to the previous output,
  gathers and sums its neighbours along the same edges, and cuts out layer 1's weight matrices and bias rows.  The
  edge arrays, the bias stacks and the converted weight stacks are as they were after the first stretch.  So the
  kernel finds the activated previous output, its neighbour sum and layer 1's parameters, and leaves the reference's
  layer of these.
-/
import proofs.«101399_j85624468013528_1_alg».proof.Proof.Carry
import proofs.«101399_j85624468013528_1_alg».proof.Proof.Rows
import proofs.«101399_j85624468013528_1_alg».proof.Proof.Net
import proofs.«101399_j85624468013528_1_alg».proof.Proof.Region1

set_option maxRecDepth 16384

noncomputable section

namespace Cert.KernelIdeal.Stage1

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The weight stacks converted once by the first stretch: on the extended reals the conversion is the identity. -/
theorem first_main_v0 : W1 m ρ c (Proc.devRef .tc main_v0) = m ((c : Thread nD τ).loc main_arg4) := by
  show after hostOps0 (W0 m ρ c) (Proc.devRef .tc main_v0) = _
  after_results
  rfl
theorem first_main_v1 : W1 m ρ c (Proc.devRef .tc main_v1) = m ((c : Thread nD τ).loc main_arg6) := by
  show after hostOps0 (W0 m ρ c) (Proc.devRef .tc main_v1) = _
  after_results
  rfl

theorem at_main_arg1 : W2 m ρ c (Proc.devRef .tc main_arg1) = m ((c : Thread nD τ).loc main_arg1) :=
  (to2 m ρ c (r := main_arg1) (by decide)).trans (W1_arg m ρ c (by decide))
theorem at_main_arg2 : W2 m ρ c (Proc.devRef .tc main_arg2) = m ((c : Thread nD τ).loc main_arg2) :=
  (to2 m ρ c (r := main_arg2) (by decide)).trans (W1_arg m ρ c (by decide))
theorem at_main_arg5 : W2 m ρ c (Proc.devRef .tc main_arg5) = m ((c : Thread nD τ).loc main_arg5) :=
  (to2 m ρ c (r := main_arg5) (by decide)).trans (W1_arg m ρ c (by decide))
theorem at_main_arg7 : W2 m ρ c (Proc.devRef .tc main_arg7) = m ((c : Thread nD τ).loc main_arg7) :=
  (to2 m ρ c (r := main_arg7) (by decide)).trans (W1_arg m ρ c (by decide))
theorem at_main_v0 : W2 m ρ c (Proc.devRef .tc main_v0) = m ((c : Thread nD τ).loc main_arg4) :=
  (to2 m ρ c (r := main_v0) (by decide)).trans (first_main_v0 m ρ c)
theorem at_main_v1 : W2 m ρ c (Proc.devRef .tc main_v1) = m ((c : Thread nD τ).loc main_arg6) :=
  (to2 m ρ c (r := main_v1) (by decide)).trans (first_main_v1 m ρ c)

variable (Z : Cert.ReferenceIdeal.Net.Nodes) (hprev : W2 m ρ c (Proc.devRef .tc main_v22) = Z)
include hprev

theorem feat : Region1.aFeat (V3 m ρ) c = Cert.ReferenceIdeal.Net.relu Z := by
  show after hostOps1 (W2 m ρ c) (Proc.devRef .tc main_v24) = _
  after_results
  rw [hprev]
  rfl

set_option maxHeartbeats 2000000 in
theorem agg : Region1.aAgg (V3 m ρ) c = Cert.ReferenceIdeal.Net.agg (Cert.ReferenceIdeal.Net.relu Z) (m ((c : Thread nD τ).loc main_arg1)) (m ((c : Thread nD τ).loc main_arg2)) := by
  show after hostOps1 (W2 m ρ c) (Proc.devRef .tc main_v34) = _
  after_results_simp
  rw [hprev, at_main_arg1 m ρ c, at_main_arg2 m ρ c]
  rfl

omit hprev in
theorem w1 : Region1.aW1 (V3 m ρ) c = Cert.ReferenceIdeal.Net.w_1 (m ((c : Thread nD τ).loc main_arg4)) := by
  show after hostOps1 (W2 m ρ c) (Proc.devRef .tc main_v36) = _
  after_results
  rw [at_main_v0 m ρ c]
  rfl

omit hprev in
theorem b1 : Region1.aB1 (V3 m ρ) c = Cert.ReferenceIdeal.Net.asRow (Cert.ReferenceIdeal.Net.v_1 (m ((c : Thread nD τ).loc main_arg5))) := by
  show after hostOps1 (W2 m ρ c) (Proc.devRef .tc main_v43) = _
  after_results
  rw [at_main_arg5 m ρ c]
  exact Cert.Rows.reshape_eq_broadcast (Cert.ReferenceIdeal.Net.v_1 (m ((c : Thread nD τ).loc main_arg5))) _ _

omit hprev in
theorem w2 : Region1.aW2 (V3 m ρ) c = Cert.ReferenceIdeal.Net.w_1 (m ((c : Thread nD τ).loc main_arg6)) := by
  show after hostOps1 (W2 m ρ c) (Proc.devRef .tc main_v40) = _
  after_results
  rw [at_main_v1 m ρ c]
  rfl

omit hprev in
theorem b2 : Region1.aB2 (V3 m ρ) c = Cert.ReferenceIdeal.Net.asRow (Cert.ReferenceIdeal.Net.v_1 (m ((c : Thread nD τ).loc main_arg7))) := by
  show after hostOps1 (W2 m ρ c) (Proc.devRef .tc main_v44) = _
  after_results
  rw [at_main_arg7 m ρ c]
  exact Cert.Rows.reshape_eq_broadcast (Cert.ReferenceIdeal.Net.v_1 (m ((c : Thread nD τ).loc main_arg7))) _ _

/-- After this kernel its output buffer holds layer 1 of the activated previous output. -/
theorem out : W4 m ρ c (Proc.devRef .tc main_v45)
    = Cert.ReferenceIdeal.Net.step (Cert.ReferenceIdeal.Net.relu Z) (m ((c : Thread nD τ).loc main_arg1)) (m ((c : Thread nD τ).loc main_arg2))
        (Cert.ReferenceIdeal.Net.w_1 (m ((c : Thread nD τ).loc main_arg4))) (Cert.ReferenceIdeal.Net.asRow (Cert.ReferenceIdeal.Net.v_1 (m ((c : Thread nD τ).loc main_arg5))))
        (Cert.ReferenceIdeal.Net.w_1 (m ((c : Thread nD τ).loc main_arg6))) (Cert.ReferenceIdeal.Net.asRow (Cert.ReferenceIdeal.Net.v_1 (m ((c : Thread nD τ).loc main_arg7)))) := by
  have e : W4 m ρ c (Proc.devRef .tc main_v45) = (dat1 (V3 m ρ) c).arrAt 6 cfg1.N := W4_arr m ρ c 6
  rw [e, Region1.final_layer (V3 m ρ) c, feat m ρ c Z hprev, agg m ρ c Z hprev, w1 m ρ c, b1 m ρ c, w2 m ρ c, b2 m ρ c]
  rfl

end Cert.KernelIdeal.Stage1

end
-- ==== Proof.Region2.lean ====
/-
  Layer 2's kernel, from blocks to the whole array.

  The kernel runs over 10 grid points; point `t` reads rows `2000 t … 2000 t + 1999` of the node features and of
  the aggregated neighbour features, the whole weight matrices and bias rows, and writes the same rows of the
  output.  Entry `(p, q)` of the block it writes is the perceptron's row function of row `p` of the two input
  blocks, which is row `2000 t + p` of the arrays; so every block is a block of ONE function of the arrays as
  the region finds them, `whole`.  The ten blocks tile the 20000 rows (row `r` lies in block `r / 2000`), so
  the output array ends holding `whole`.
-/
import proofs.«101399_j85624468013528_1_alg».proof.Proof.Gen.KernelIdeal.Frame
import proofs.«101399_j85624468013528_1_alg».proof.Proof.KBody
import proofs.«101399_j85624468013528_1_alg».proof.Proof.RefLayer
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Region2

open Cert.KernelIdeal Cert.KernelIdeal.Gen Cert.KernelIdeal.Body Idealize.ShloMosaic.ValueIdx Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The six arrays the region finds, as plain functions into the extended reals: node features, aggregated
    neighbour features, the two weight matrices and the two bias rows. -/
abbrev aFeat (c : Dev nD) : S20000x256.Idx → EReal := V c main_v47
abbrev aAgg (c : Dev nD) : S20000x256.Idx → EReal := V c main_v57
abbrev aW1 (c : Dev nD) : S256x256.Idx → EReal := V c main_v59
abbrev aB1 (c : Dev nD) : S1x256.Idx → EReal := V c main_v66
abbrev aW2 (c : Dev nD) : S256x256.Idx → EReal := V c main_v63
abbrev aB2 (c : Dev nD) : S1x256.Idx → EReal := V c main_v67

/-- The windows' block indices at a grid point, decided over the ten points: the two row-blocked inputs and the
    output sit at block `t` of the rows, the weights and biases at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry `(r, q)` of the layer's output as a function of the arrays the region finds: the perceptron's row
    function at row `r` of features plus aggregated neighbours. -/
def entry (c : Dev nD) (r : Fin 20000) (q : Fin 256) : EReal :=
  mlpRow
    (fun l => aFeat V c (ix2 r l) + aAgg V c (ix2 r l))
    (fun l k => aW1 V c (ix2 l k))
    (fun k => aB1 V c (ix2 (0 : Fin 1) k))
    (fun k d => aW2 V c (ix2 k d))
    (fun d => aB2 V c (ix2 (0 : Fin 1) d)) q

/-- The layer's output array as one function of the arrays the region finds. -/
def whole (c : Dev nD) : S20000x256.Idx → EReal :=
  fun i => entry V c ⟨(i 0).val, (i 0).isLt⟩ ⟨(i 1).val, (i 1).isLt⟩

theorem whole_at (c : Dev nD) (i : S20000x256.Idx) (r : Fin 20000) (q : Fin 256) (h0 : (i 0).val = r.val) (h1 : (i 1).val = q.val) :
    whole V c i = entry V c r q := by
  unfold whole
  rw [show (⟨(i 0).val, (i 0).isLt⟩ : Fin 20000) = r from Fin.ext h0, show (⟨(i 1).val, (i 1).isLt⟩ : Fin 256) = q from Fin.ext h1]

/-- Row `p` of the feature block at point `t` is row `2000 t + p` of the feature array. -/
theorem blk_feat (c : Dev nD) (t : Fin cfg2.N) (p : Fin 2000) (l : Fin 256) (r : Fin 20000) (hr : r.val = t.val * 2000 + p.val) :
    (iblk2 V c 0 t : Vec Ideal S2000x256 .f32) (ix2 p l) = aFeat V c (ix2 r l) := by
  obtain ⟨e0, e1, -⟩ := idx_facts t
  unfold iblk2
  rw [View.read_apply]
  show aFeat V c _ = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * l.val = l.val; omega

/-- Row `p` of the aggregate block at point `t` is row `2000 t + p` of the aggregate array. -/
theorem blk_agg (c : Dev nD) (t : Fin cfg2.N) (p : Fin 2000) (l : Fin 256) (r : Fin 20000) (hr : r.val = t.val * 2000 + p.val) :
    (iblk2 V c 1 t : Vec Ideal S2000x256 .f32) (ix2 p l) = aAgg V c (ix2 r l) := by
  obtain ⟨-, -, e0, e1, -⟩ := idx_facts t
  unfold iblk2
  rw [View.read_apply]
  show aAgg V c _ = _
  refine congrArg _ (funext fun a => Fin.ext ?_)
  match a with
  | ⟨0, _⟩ => show win2_1.index t (0 : Fin 2) * 2000 + 1 * p.val = r.val; omega
  | ⟨1, _⟩ => show win2_1.index t (1 : Fin 2) * 256 + 1 * l.val = l.val; omega

/-- The first weight matrix's one block is the matrix. -/
theorem blk_w1 (c : Dev nD) (t : Fin cfg2.N) (l k : Fin 256) :
    (iblk2 V c 2 t : Vec Ideal S256x256 .bf16) (ix2 l k) = aW1 V c (ix2 l k) := by
  obtain ⟨-, -, -, -, e0, e1, -⟩ := idx_facts t
  unfold iblk2
  rw [View.read_apply]
  show aW1 V c _ = _
  refine congrArg _ (funext fun a => Fin.ext ?_)
  match a with
  | ⟨0, _⟩ => show win2_2.index t (0 : Fin 2) * 256 + 1 * l.val = l.val; omega
  | ⟨1, _⟩ => show win2_2.index t (1 : Fin 2) * 256 + 1 * k.val = k.val; omega

/-- The first bias row's one block is the row. -/
theorem blk_b1 (c : Dev nD) (t : Fin cfg2.N) (k : Fin 256) :
    (iblk2 V c 3 t : Vec Ideal S1x256 .f32) (ix2 (0 : Fin 1) k) = aB1 V c (ix2 (0 : Fin 1) k) := by
  obtain ⟨-, -, -, -, -, -, e0, e1, -⟩ := idx_facts t
  unfold iblk2
  rw [View.read_apply]
  show aB1 V c _ = _
  refine congrArg _ (funext fun a => Fin.ext ?_)
  match a with
  | ⟨0, _⟩ => show win2_3.index t (0 : Fin 2) * 1 + 1 * 0 = 0; omega
  | ⟨1, _⟩ => show win2_3.index t (1 : Fin 2) * 256 + 1 * k.val = k.val; omega

/-- The second weight matrix's one block is the matrix. -/
theorem blk_w2 (c : Dev nD) (t : Fin cfg2.N) (k d : Fin 256) :
    (iblk2 V c 4 t : Vec Ideal S256x256 .bf16) (ix2 k d) = aW2 V c (ix2 k d) := by
  obtain ⟨-, -, -, -, -, -, -, -, e0, e1, -⟩ := idx_facts t
  unfold iblk2
  rw [View.read_apply]
  show aW2 V c _ = _
  refine congrArg _ (funext fun a => Fin.ext ?_)
  match a with
  | ⟨0, _⟩ => show win2_4.index t (0 : Fin 2) * 256 + 1 * k.val = k.val; omega
  | ⟨1, _⟩ => show win2_4.index t (1 : Fin 2) * 256 + 1 * d.val = d.val; omega

/-- The second bias row's one block is the row. -/
theorem blk_b2 (c : Dev nD) (t : Fin cfg2.N) (d : Fin 256) :
    (iblk2 V c 5 t : Vec Ideal S1x256 .f32) (ix2 (0 : Fin 1) d) = aB2 V c (ix2 (0 : Fin 1) d) := by
  obtain ⟨-, -, -, -, -, -, -, -, -, -, e0, e1, -⟩ := idx_facts t
  unfold iblk2
  rw [View.read_apply]
  show aB2 V c _ = _
  refine congrArg _ (funext fun a => Fin.ext ?_)
  match a with
  | ⟨0, _⟩ => show win2_5.index t (0 : Fin 2) * 1 + 1 * 0 = 0; omega
  | ⟨1, _⟩ => show win2_5.index t (1 : Fin 2) * 256 + 1 * d.val = d.val; omega

/-- What point `t` writes back is block `t` of `whole`. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz]
  rw [pay2_eq]
  funext j
  obtain ⟨p, q, rfl⟩ : ∃ (p : Fin 2000) (q : Fin 256), j = ix2 p q := ⟨j 0, j 1, eq_ix2 j⟩
  obtain ⟨-, -, -, -, -, -, -, -, -, -, -, -, e0, e1⟩ := idx_facts t
  have hN : cfg2.N = 10 := N_2
  have hrow : t.val * 2000 + p.val < 20000 := by have := t.isLt; have := p.isLt; omega
  show core (iblk2 V c 0 t) (iblk2 V c 1 t) (iblk2 V c 2 t) (iblk2 V c 3 t) (iblk2 V c 4 t) (iblk2 V c 5 t) (ix2 p q)
      = whole V c (((cfg2.win 6).blk t).view.emb (ix2 p q))
  refine ((core_apply _ _ _ _ _ _ p q).trans ?_).trans
    (whole_at V c _ ⟨t.val * 2000 + p.val, hrow⟩ q
      (by show win2_6.index t (0 : Fin 2) * 2000 + 1 * p.val = t.val * 2000 + p.val; omega)
      (by show win2_6.index t (1 : Fin 2) * 256 + 1 * q.val = q.val; omega)).symm
  unfold entry
  exact mlpRow_congr
    (fun l => congrArg₂ (fun a b : EReal => a + b) (blk_feat V c t p l ⟨t.val * 2000 + p.val, hrow⟩ rfl) (blk_agg V c t p l ⟨t.val * 2000 + p.val, hrow⟩ rfl))
    (fun l k => blk_w1 V c t l k) (fun k => blk_b1 V c t k) (fun k d => blk_w2 V c t k d) (fun d => blk_b2 V c t d) q

/-- An index of the output array is in point `t`'s block iff each coordinate is in the block's range on its axis. -/
theorem mem_blk (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v68).slice (win2_6.rect t)).set ↔ _
  rw [View.set_slice_whole, Rect.mem_set_unit]
  exact Iff.rfl

/-- Every index of the output array lies in the block of the point that holds its row. -/
theorem cover (i : S20000x256.Idx) :
    ∃ t : Fin cfg2.N, (cfg2.win 6).flush t = true ∧ i ∈ ((cfg2.win 6).blk t).view.set := by
  have hi0 : (i 0).val < 20000 := (i 0).isLt
  have hi1 : (i 1).val < 256 := (i 1).isLt
  have hN : cfg2.N = 10 := N_2
  have ht : (i 0).val / 2000 < cfg2.N := by rw [hN]; omega
  refine ⟨⟨(i 0).val / 2000, ht⟩, flush2_6 _, ?_⟩
  rw [mem_blk]
  obtain ⟨-, -, -, -, -, -, -, -, -, -, -, -, e0, e1⟩ := idx_facts ⟨(i 0).val / 2000, ht⟩
  have e0' : win2_6.index ⟨(i 0).val / 2000, ht⟩ (0 : Fin 2) = (i 0).val / 2000 := e0
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    omega
  | ⟨1, _⟩ =>
    show win2_6.index ⟨(i 0).val / 2000, ht⟩ (1 : Fin 2) * 256 ≤ (i 1).val ∧ (i 1).val < win2_6.index ⟨(i 0).val / 2000, ht⟩ (1 : Fin 2) * 256 + 256
    omega

/-- The output array after the region: `whole` of the arrays the region found. -/
theorem final (c : Dev nD) : (dat2 V c).arrAt 6 cfg2.N = whole V c :=
  (dat2 V c).arrAt_eq_of_cover 6 (whole V c) (fun t _ => flushed_eq V c t) (cover)

/-- `whole` is the reference's layer applied to the arrays the region finds: both are the perceptron's row function
    at every entry. -/
theorem whole_eq_layer (c : Dev nD) :
    whole V c = Cert.ReferenceIdeal.Layer.layer (aFeat V c) (aAgg V c) (aW1 V c) (aB1 V c) (aW2 V c) (aB2 V c) := by
  funext i
  obtain ⟨r, q, rfl⟩ : ∃ (r : Fin 20000) (q : Fin 256), i = ix2 r q := ⟨i 0, i 1, eq_ix2 i⟩
  rw [whole_at V c (ix2 r q) r q rfl rfl]
  exact (Cert.ReferenceIdeal.Layer.layer_apply (aFeat V c) (aAgg V c) (aW1 V c) (aB1 V c) (aW2 V c) (aB2 V c) r q).symm

/-- The output array after the region, as the reference's layer of the arrays the region found. -/
theorem final_layer (c : Dev nD) :
    (dat2 V c).arrAt 6 cfg2.N
      = Cert.ReferenceIdeal.Layer.layer (aFeat V c) (aAgg V c) (aW1 V c) (aB1 V c) (aW2 V c) (aB2 V c) :=
  (final V c).trans (whole_eq_layer V c)

end Cert.KernelIdeal.Region2

end
-- ==== Proof.Stage2.lean ====
/-
  Layer 2: what its kernel finds and what it leaves.

  Between the previous kernel and this one the host applies the inter-layer activation to the previous output,
  gathers and sums its neighbours along the same edges, and cuts out layer 2's weight matrices and bias rows.  The
  edge arrays, the bias stacks and the converted weight stacks are as they were after the first stretch.  So the
  kernel finds the activated previous output, its neighbour sum and layer 2's parameters, and leaves the reference's
  layer of these.
-/
import proofs.«101399_j85624468013528_1_alg».proof.Proof.Carry
import proofs.«101399_j85624468013528_1_alg».proof.Proof.Rows
import proofs.«101399_j85624468013528_1_alg».proof.Proof.Net
import proofs.«101399_j85624468013528_1_alg».proof.Proof.Region2

set_option maxRecDepth 16384

noncomputable section

namespace Cert.KernelIdeal.Stage2

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The weight stacks converted once by the first stretch: on the extended reals the conversion is the identity. -/
theorem first_main_v0 : W1 m ρ c (Proc.devRef .tc main_v0) = m ((c : Thread nD τ).loc main_arg4) := by
  show after hostOps0 (W0 m ρ c) (Proc.devRef .tc main_v0) = _
  after_results
  rfl
theorem first_main_v1 : W1 m ρ c (Proc.devRef .tc main_v1) = m ((c : Thread nD τ).loc main_arg6) := by
  show after hostOps0 (W0 m ρ c) (Proc.devRef .tc main_v1) = _
  after_results
  rfl

theorem at_main_arg1 : W4 m ρ c (Proc.devRef .tc main_arg1) = m ((c : Thread nD τ).loc main_arg1) :=
  (to4 m ρ c (r := main_arg1) (by decide) (by decide) (by decide)).trans (W1_arg m ρ c (by decide))
theorem at_main_arg2 : W4 m ρ c (Proc.devRef .tc main_arg2) = m ((c : Thread nD τ).loc main_arg2) :=
  (to4 m ρ c (r := main_arg2) (by decide) (by decide) (by decide)).trans (W1_arg m ρ c (by decide))
theorem at_main_arg5 : W4 m ρ c (Proc.devRef .tc main_arg5) = m ((c : Thread nD τ).loc main_arg5) :=
  (to4 m ρ c (r := main_arg5) (by decide) (by decide) (by decide)).trans (W1_arg m ρ c (by decide))
theorem at_main_arg7 : W4 m ρ c (Proc.devRef .tc main_arg7) = m ((c : Thread nD τ).loc main_arg7) :=
  (to4 m ρ c (r := main_arg7) (by decide) (by decide) (by decide)).trans (W1_arg m ρ c (by decide))
theorem at_main_v0 : W4 m ρ c (Proc.devRef .tc main_v0) = m ((c : Thread nD τ).loc main_arg4) :=
  (to4 m ρ c (r := main_v0) (by decide) (by decide) (by decide)).trans (first_main_v0 m ρ c)
theorem at_main_v1 : W4 m ρ c (Proc.devRef .tc main_v1) = m ((c : Thread nD τ).loc main_arg6) :=
  (to4 m ρ c (r := main_v1) (by decide) (by decide) (by decide)).trans (first_main_v1 m ρ c)

variable (Z : Cert.ReferenceIdeal.Net.Nodes) (hprev : W4 m ρ c (Proc.devRef .tc main_v45) = Z)
include hprev

theorem feat : Region2.aFeat (V5 m ρ) c = Cert.ReferenceIdeal.Net.relu Z := by
  show after hostOps2 (W4 m ρ c) (Proc.devRef .tc main_v47) = _
  after_results
  rw [hprev]
  rfl

set_option maxHeartbeats 2000000 in
theorem agg : Region2.aAgg (V5 m ρ) c = Cert.ReferenceIdeal.Net.agg (Cert.ReferenceIdeal.Net.relu Z) (m ((c : Thread nD τ).loc main_arg1)) (m ((c : Thread nD τ).loc main_arg2)) := by
  show after hostOps2 (W4 m ρ c) (Proc.devRef .tc main_v57) = _
  after_results_simp
  rw [hprev, at_main_arg1 m ρ c, at_main_arg2 m ρ c]
  rfl

omit hprev in
theorem w1 : Region2.aW1 (V5 m ρ) c = Cert.ReferenceIdeal.Net.w_2 (m ((c : Thread nD τ).loc main_arg4)) := by
  show after hostOps2 (W4 m ρ c) (Proc.devRef .tc main_v59) = _
  after_results
  rw [at_main_v0 m ρ c]
  rfl

omit hprev in
theorem b1 : Region2.aB1 (V5 m ρ) c = Cert.ReferenceIdeal.Net.asRow (Cert.ReferenceIdeal.Net.v_2 (m ((c : Thread nD τ).loc main_arg5))) := by
  show after hostOps2 (W4 m ρ c) (Proc.devRef .tc main_v66) = _
  after_results
  rw [at_main_arg5 m ρ c]
  exact Cert.Rows.reshape_eq_broadcast (Cert.ReferenceIdeal.Net.v_2 (m ((c : Thread nD τ).loc main_arg5))) _ _

omit hprev in
theorem w2 : Region2.aW2 (V5 m ρ) c = Cert.ReferenceIdeal.Net.w_2 (m ((c : Thread nD τ).loc main_arg6)) := by
  show after hostOps2 (W4 m ρ c) (Proc.devRef .tc main_v63) = _
  after_results
  rw [at_main_v1 m ρ c]
  rfl

omit hprev in
theorem b2 : Region2.aB2 (V5 m ρ) c = Cert.ReferenceIdeal.Net.asRow (Cert.ReferenceIdeal.Net.v_2 (m ((c : Thread nD τ).loc main_arg7))) := by
  show after hostOps2 (W4 m ρ c) (Proc.devRef .tc main_v67) = _
  after_results
  rw [at_main_arg7 m ρ c]
  exact Cert.Rows.reshape_eq_broadcast (Cert.ReferenceIdeal.Net.v_2 (m ((c : Thread nD τ).loc main_arg7))) _ _

/-- After this kernel its output buffer holds layer 2 of the activated previous output. -/
theorem out : W6 m ρ c (Proc.devRef .tc main_v68)
    = Cert.ReferenceIdeal.Net.step (Cert.ReferenceIdeal.Net.relu Z) (m ((c : Thread nD τ).loc main_arg1)) (m ((c : Thread nD τ).loc main_arg2))
        (Cert.ReferenceIdeal.Net.w_2 (m ((c : Thread nD τ).loc main_arg4))) (Cert.ReferenceIdeal.Net.asRow (Cert.ReferenceIdeal.Net.v_2 (m ((c : Thread nD τ).loc main_arg5))))
        (Cert.ReferenceIdeal.Net.w_2 (m ((c : Thread nD τ).loc main_arg6))) (Cert.ReferenceIdeal.Net.asRow (Cert.ReferenceIdeal.Net.v_2 (m ((c : Thread nD τ).loc main_arg7)))) := by
  have e : W6 m ρ c (Proc.devRef .tc main_v68) = (dat2 (V5 m ρ) c).arrAt 6 cfg2.N := W6_arr m ρ c 6
  rw [e, Region2.final_layer (V5 m ρ) c, feat m ρ c Z hprev, agg m ρ c Z hprev, w1 m ρ c, b1 m ρ c, w2 m ρ c, b2 m ρ c]
  rfl

end Cert.KernelIdeal.Stage2

end
-- ==== Proof.Region3.lean ====
/-
  Layer 3's kernel, from blocks to the whole array.

  The kernel runs over 10 grid points; point `t` reads rows `2000 t … 2000 t + 1999` of the node features and of
  the aggregated neighbour features, the whole weight matrices and bias rows, and writes the same rows of the
  output.  Entry `(p, q)` of the block it writes is the perceptron's row function of row `p` of the two input
  blocks, which is row `2000 t + p` of the arrays; so every block is a block of ONE function of the arrays as
  the region finds them, `whole`.  The ten blocks tile the 20000 rows (row `r` lies in block `r / 2000`), so
  the output array ends holding `whole`.
-/
import proofs.«101399_j85624468013528_1_alg».proof.Proof.Gen.KernelIdeal.Frame
import proofs.«101399_j85624468013528_1_alg».proof.Proof.KBody
import proofs.«101399_j85624468013528_1_alg».proof.Proof.RefLayer
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Region3

open Cert.KernelIdeal Cert.KernelIdeal.Gen Cert.KernelIdeal.Body Idealize.ShloMosaic.ValueIdx Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The six arrays the region finds, as plain functions into the extended reals: node features, aggregated
    neighbour features, the two weight matrices and the two bias rows. -/
abbrev aFeat (c : Dev nD) : S20000x256.Idx → EReal := V c main_v70
abbrev aAgg (c : Dev nD) : S20000x256.Idx → EReal := V c main_v80
abbrev aW1 (c : Dev nD) : S256x256.Idx → EReal := V c main_v82
abbrev aB1 (c : Dev nD) : S1x256.Idx → EReal := V c main_v89
abbrev aW2 (c : Dev nD) : S256x256.Idx → EReal := V c main_v86
abbrev aB2 (c : Dev nD) : S1x256.Idx → EReal := V c main_v90

/-- The windows' block indices at a grid point, decided over the ten points: the two row-blocked inputs and the
    output sit at block `t` of the rows, the weights and biases at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry `(r, q)` of the layer's output as a function of the arrays the region finds: the perceptron's row
    function at row `r` of features plus aggregated neighbours. -/
def entry (c : Dev nD) (r : Fin 20000) (q : Fin 256) : EReal :=
  mlpRow
    (fun l => aFeat V c (ix2 r l) + aAgg V c (ix2 r l))
    (fun l k => aW1 V c (ix2 l k))
    (fun k => aB1 V c (ix2 (0 : Fin 1) k))
    (fun k d => aW2 V c (ix2 k d))
    (fun d => aB2 V c (ix2 (0 : Fin 1) d)) q

/-- The layer's output array as one function of the arrays the region finds. -/
def whole (c : Dev nD) : S20000x256.Idx → EReal :=
  fun i => entry V c ⟨(i 0).val, (i 0).isLt⟩ ⟨(i 1).val, (i 1).isLt⟩

theorem whole_at (c : Dev nD) (i : S20000x256.Idx) (r : Fin 20000) (q : Fin 256) (h0 : (i 0).val = r.val) (h1 : (i 1).val = q.val) :
    whole V c i = entry V c r q := by
  unfold whole
  rw [show (⟨(i 0).val, (i 0).isLt⟩ : Fin 20000) = r from Fin.ext h0, show (⟨(i 1).val, (i 1).isLt⟩ : Fin 256) = q from Fin.ext h1]

/-- Row `p` of the feature block at point `t` is row `2000 t + p` of the feature array. -/
theorem blk_feat (c : Dev nD) (t : Fin cfg3.N) (p : Fin 2000) (l : Fin 256) (r : Fin 20000) (hr : r.val = t.val * 2000 + p.val) :
    (iblk3 V c 0 t : Vec Ideal S2000x256 .f32) (ix2 p l) = aFeat V c (ix2 r l) := by
  obtain ⟨e0, e1, -⟩ := idx_facts t
  unfold iblk3
  rw [View.read_apply]
  show aFeat V c _ = _
  refine congrArg _ (funext fun a => Fin.ext ?_)
  match a with
  | ⟨0, _⟩ => show win3_0.index t (0 : Fin 2) * 2000 + 1 * p.val = r.val; omega
  | ⟨1, _⟩ => show win3_0.index t (1 : Fin 2) * 256 + 1 * l.val = l.val; omega

/-- Row `p` of the aggregate block at point `t` is row `2000 t + p` of the aggregate array. -/
theorem blk_agg (c : Dev nD) (t : Fin cfg3.N) (p : Fin 2000) (l : Fin 256) (r : Fin 20000) (hr : r.val = t.val * 2000 + p.val) :
    (iblk3 V c 1 t : Vec Ideal S2000x256 .f32) (ix2 p l) = aAgg V c (ix2 r l) := by
  obtain ⟨-, -, e0, e1, -⟩ := idx_facts t
  unfold iblk3
  rw [View.read_apply]
  show aAgg V c _ = _
  refine congrArg _ (funext fun a => Fin.ext ?_)
  match a with
  | ⟨0, _⟩ => show win3_1.index t (0 : Fin 2) * 2000 + 1 * p.val = r.val; omega
  | ⟨1, _⟩ => show win3_1.index t (1 : Fin 2) * 256 + 1 * l.val = l.val; omega

/-- The first weight matrix's one block is the matrix. -/
theorem blk_w1 (c : Dev nD) (t : Fin cfg3.N) (l k : Fin 256) :
    (iblk3 V c 2 t : Vec Ideal S256x256 .bf16) (ix2 l k) = aW1 V c (ix2 l k) := by
  obtain ⟨-, -, -, -, e0, e1, -⟩ := idx_facts t
  unfold iblk3
  rw [View.read_apply]
  show aW1 V c _ = _
  refine congrArg _ (funext fun a => Fin.ext ?_)
  match a with
  | ⟨0, _⟩ => show win3_2.index t (0 : Fin 2) * 256 + 1 * l.val = l.val; omega
  | ⟨1, _⟩ => show win3_2.index t (1 : Fin 2) * 256 + 1 * k.val = k.val; omega

/-- The first bias row's one block is the row. -/
theorem blk_b1 (c : Dev nD) (t : Fin cfg3.N) (k : Fin 256) :
    (iblk3 V c 3 t : Vec Ideal S1x256 .f32) (ix2 (0 : Fin 1) k) = aB1 V c (ix2 (0 : Fin 1) k) := by
  obtain ⟨-, -, -, -, -, -, e0, e1, -⟩ := idx_facts t
  unfold iblk3
  rw [View.read_apply]
  show aB1 V c _ = _
  refine congrArg _ (funext fun a => Fin.ext ?_)
  match a with
  | ⟨0, _⟩ => show win3_3.index t (0 : Fin 2) * 1 + 1 * 0 = 0; omega
  | ⟨1, _⟩ => show win3_3.index t (1 : Fin 2) * 256 + 1 * k.val = k.val; omega

/-- The second weight matrix's one block is the matrix. -/
theorem blk_w2 (c : Dev nD) (t : Fin cfg3.N) (k d : Fin 256) :
    (iblk3 V c 4 t : Vec Ideal S256x256 .bf16) (ix2 k d) = aW2 V c (ix2 k d) := by
  obtain ⟨-, -, -, -, -, -, -, -, e0, e1, -⟩ := idx_facts t
  unfold iblk3
  rw [View.read_apply]
  show aW2 V c _ = _
  refine congrArg _ (funext fun a => Fin.ext ?_)
  match a with
  | ⟨0, _⟩ => show win3_4.index t (0 : Fin 2) * 256 + 1 * k.val = k.val; omega
  | ⟨1, _⟩ => show win3_4.index t (1 : Fin 2) * 256 + 1 * d.val = d.val; omega

/-- The second bias row's one block is the row. -/
theorem blk_b2 (c : Dev nD) (t : Fin cfg3.N) (d : Fin 256) :
    (iblk3 V c 5 t : Vec Ideal S1x256 .f32) (ix2 (0 : Fin 1) d) = aB2 V c (ix2 (0 : Fin 1) d) := by
  obtain ⟨-, -, -, -, -, -, -, -, -, -, e0, e1, -⟩ := idx_facts t
  unfold iblk3
  rw [View.read_apply]
  show aB2 V c _ = _
  refine congrArg _ (funext fun a => Fin.ext ?_)
  match a with
  | ⟨0, _⟩ => show win3_5.index t (0 : Fin 2) * 1 + 1 * 0 = 0; omega
  | ⟨1, _⟩ => show win3_5.index t (1 : Fin 2) * 256 + 1 * d.val = d.val; omega

/-- What point `t` writes back is block `t` of `whole`. -/
theorem flushed_eq (c : Dev nD) (t : Fin cfg3.N) :
    (dat3 V c).flushed 6 t = ((cfg3.win 6).blk t).view.read (Elt Ideal) (whole V c) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x256) hz, View.ld_unit_zero (S := S1x256) hz]
  rw [pay3_eq]
  funext j
  obtain ⟨p, q, rfl⟩ : ∃ (p : Fin 2000) (q : Fin 256), j = ix2 p q := ⟨j 0, j 1, eq_ix2 j⟩
  obtain ⟨-, -, -, -, -, -, -, -, -, -, -, -, e0, e1⟩ := idx_facts t
  have hN : cfg3.N = 10 := N_3
  have hrow : t.val * 2000 + p.val < 20000 := by have := t.isLt; have := p.isLt; omega
  show core (iblk3 V c 0 t) (iblk3 V c 1 t) (iblk3 V c 2 t) (iblk3 V c 3 t) (iblk3 V c 4 t) (iblk3 V c 5 t) (ix2 p q)
      = whole V c (((cfg3.win 6).blk t).view.emb (ix2 p q))
  refine ((core_apply _ _ _ _ _ _ p q).trans ?_).trans
    (whole_at V c _ ⟨t.val * 2000 + p.val, hrow⟩ q
      (by show win3_6.index t (0 : Fin 2) * 2000 + 1 * p.val = t.val * 2000 + p.val; omega)
      (by show win3_6.index t (1 : Fin 2) * 256 + 1 * q.val = q.val; omega)).symm
  unfold entry
  exact mlpRow_congr
    (fun l => congrArg₂ (fun a b : EReal => a + b) (blk_feat V c t p l ⟨t.val * 2000 + p.val, hrow⟩ rfl) (blk_agg V c t p l ⟨t.val * 2000 + p.val, hrow⟩ rfl))
    (fun l k => blk_w1 V c t l k) (fun k => blk_b1 V c t k) (fun k d => blk_w2 V c t k d) (fun d => blk_b2 V c t d) q

/-- An index of the output array is in point `t`'s block iff each coordinate is in the block's range on its axis. -/
theorem mem_blk (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v91).slice (win3_6.rect t)).set ↔ _
  rw [View.set_slice_whole, Rect.mem_set_unit]
  exact Iff.rfl

/-- Every index of the output array lies in the block of the point that holds its row. -/
theorem cover (i : S20000x256.Idx) :
    ∃ t : Fin cfg3.N, (cfg3.win 6).flush t = true ∧ i ∈ ((cfg3.win 6).blk t).view.set := by
  have hi0 : (i 0).val < 20000 := (i 0).isLt
  have hi1 : (i 1).val < 256 := (i 1).isLt
  have hN : cfg3.N = 10 := N_3
  have ht : (i 0).val / 2000 < cfg3.N := by rw [hN]; omega
  refine ⟨⟨(i 0).val / 2000, ht⟩, flush3_6 _, ?_⟩
  rw [mem_blk]
  obtain ⟨-, -, -, -, -, -, -, -, -, -, -, -, e0, e1⟩ := idx_facts ⟨(i 0).val / 2000, ht⟩
  have e0' : win3_6.index ⟨(i 0).val / 2000, ht⟩ (0 : Fin 2) = (i 0).val / 2000 := e0
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    omega
  | ⟨1, _⟩ =>
    show win3_6.index ⟨(i 0).val / 2000, ht⟩ (1 : Fin 2) * 256 ≤ (i 1).val ∧ (i 1).val < win3_6.index ⟨(i 0).val / 2000, ht⟩ (1 : Fin 2) * 256 + 256
    omega

/-- The output array after the region: `whole` of the arrays the region found. -/
theorem final (c : Dev nD) : (dat3 V c).arrAt 6 cfg3.N = whole V c :=
  (dat3 V c).arrAt_eq_of_cover 6 (whole V c) (fun t _ => flushed_eq V c t) (cover)

/-- `whole` is the reference's layer applied to the arrays the region finds: both are the perceptron's row function
    at every entry. -/
theorem whole_eq_layer (c : Dev nD) :
    whole V c = Cert.ReferenceIdeal.Layer.layer (aFeat V c) (aAgg V c) (aW1 V c) (aB1 V c) (aW2 V c) (aB2 V c) := by
  funext i
  obtain ⟨r, q, rfl⟩ : ∃ (r : Fin 20000) (q : Fin 256), i = ix2 r q := ⟨i 0, i 1, eq_ix2 i⟩
  rw [whole_at V c (ix2 r q) r q rfl rfl]
  exact (Cert.ReferenceIdeal.Layer.layer_apply (aFeat V c) (aAgg V c) (aW1 V c) (aB1 V c) (aW2 V c) (aB2 V c) r q).symm

/-- The output array after the region, as the reference's layer of the arrays the region found. -/
theorem final_layer (c : Dev nD) :
    (dat3 V c).arrAt 6 cfg3.N
      = Cert.ReferenceIdeal.Layer.layer (aFeat V c) (aAgg V c) (aW1 V c) (aB1 V c) (aW2 V c) (aB2 V c) :=
  (final V c).trans (whole_eq_layer V c)

end Cert.KernelIdeal.Region3

end
-- ==== Proof.Stage3.lean ====
/-
  Layer 3: what its kernel finds and what it leaves.

  Between the previous kernel and this one the host applies the inter-layer activation to the previous output,
  gathers and sums its neighbours along the same edges, and cuts out layer 3's weight matrices and bias rows.  The
  edge arrays, the bias stacks and the converted weight stacks are as they were after the first stretch.  So the
  kernel finds the activated previous output, its neighbour sum and layer 3's parameters, and leaves the reference's
  layer of these.
-/
import proofs.«101399_j85624468013528_1_alg».proof.Proof.Carry
import proofs.«101399_j85624468013528_1_alg».proof.Proof.Rows
import proofs.«101399_j85624468013528_1_alg».proof.Proof.Net
import proofs.«101399_j85624468013528_1_alg».proof.Proof.Region3

set_option maxRecDepth 16384

noncomputable section

namespace Cert.KernelIdeal.Stage3

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The weight stacks converted once by the first stretch: on the extended reals the conversion is the identity. -/
theorem first_main_v0 : W1 m ρ c (Proc.devRef .tc main_v0) = m ((c : Thread nD τ).loc main_arg4) := by
  show after hostOps0 (W0 m ρ c) (Proc.devRef .tc main_v0) = _
  after_results
  rfl
theorem first_main_v1 : W1 m ρ c (Proc.devRef .tc main_v1) = m ((c : Thread nD τ).loc main_arg6) := by
  show after hostOps0 (W0 m ρ c) (Proc.devRef .tc main_v1) = _
  after_results
  rfl

theorem at_main_arg1 : W6 m ρ c (Proc.devRef .tc main_arg1) = m ((c : Thread nD τ).loc main_arg1) :=
  (to6 m ρ c (r := main_arg1) (by decide) (by decide) (by decide) (by decide) (by decide)).trans (W1_arg m ρ c (by decide))
theorem at_main_arg2 : W6 m ρ c (Proc.devRef .tc main_arg2) = m ((c : Thread nD τ).loc main_arg2) :=
  (to6 m ρ c (r := main_arg2) (by decide) (by decide) (by decide) (by decide) (by decide)).trans (W1_arg m ρ c (by decide))
theorem at_main_arg5 : W6 m ρ c (Proc.devRef .tc main_arg5) = m ((c : Thread nD τ).loc main_arg5) :=
  (to6 m ρ c (r := main_arg5) (by decide) (by decide) (by decide) (by decide) (by decide)).trans (W1_arg m ρ c (by decide))
theorem at_main_arg7 : W6 m ρ c (Proc.devRef .tc main_arg7) = m ((c : Thread nD τ).loc main_arg7) :=
  (to6 m ρ c (r := main_arg7) (by decide) (by decide) (by decide) (by decide) (by decide)).trans (W1_arg m ρ c (by decide))
theorem at_main_v0 : W6 m ρ c (Proc.devRef .tc main_v0) = m ((c : Thread nD τ).loc main_arg4) :=
  (to6 m ρ c (r := main_v0) (by decide) (by decide) (by decide) (by decide) (by decide)).trans (first_main_v0 m ρ c)
theorem at_main_v1 : W6 m ρ c (Proc.devRef .tc main_v1) = m ((c : Thread nD τ).loc main_arg6) :=
  (to6 m ρ c (r := main_v1) (by decide) (by decide) (by decide) (by decide) (by decide)).trans (first_main_v1 m ρ c)

variable (Z : Cert.ReferenceIdeal.Net.Nodes) (hprev : W6 m ρ c (Proc.devRef .tc main_v68) = Z)
include hprev

theorem feat : Region3.aFeat (V7 m ρ) c = Cert.ReferenceIdeal.Net.relu Z := by
  show after hostOps3 (W6 m ρ c) (Proc.devRef .tc main_v70) = _
  after_results
  rw [hprev]
  rfl

set_option maxHeartbeats 2000000 in
theorem agg : Region3.aAgg (V7 m ρ) c = Cert.ReferenceIdeal.Net.agg (Cert.ReferenceIdeal.Net.relu Z) (m ((c : Thread nD τ).loc main_arg1)) (m ((c : Thread nD τ).loc main_arg2)) := by
  show after hostOps3 (W6 m ρ c) (Proc.devRef .tc main_v80) = _
  after_results_simp
  rw [hprev, at_main_arg1 m ρ c, at_main_arg2 m ρ c]
  rfl

omit hprev in
theorem w1 : Region3.aW1 (V7 m ρ) c = Cert.ReferenceIdeal.Net.w_3 (m ((c : Thread nD τ).loc main_arg4)) := by
  show after hostOps3 (W6 m ρ c) (Proc.devRef .tc main_v82) = _
  after_results
  rw [at_main_v0 m ρ c]
  rfl

omit hprev in
theorem b1 : Region3.aB1 (V7 m ρ) c = Cert.ReferenceIdeal.Net.asRow (Cert.ReferenceIdeal.Net.v_3 (m ((c : Thread nD τ).loc main_arg5))) := by
  show after hostOps3 (W6 m ρ c) (Proc.devRef .tc main_v89) = _
  after_results
  rw [at_main_arg5 m ρ c]
  exact Cert.Rows.reshape_eq_broadcast (Cert.ReferenceIdeal.Net.v_3 (m ((c : Thread nD τ).loc main_arg5))) _ _

omit hprev in
theorem w2 : Region3.aW2 (V7 m ρ) c = Cert.ReferenceIdeal.Net.w_3 (m ((c : Thread nD τ).loc main_arg6)) := by
  show after hostOps3 (W6 m ρ c) (Proc.devRef .tc main_v86) = _
  after_results
  rw [at_main_v1 m ρ c]
  rfl

omit hprev in
theorem b2 : Region3.aB2 (V7 m ρ) c = Cert.ReferenceIdeal.Net.asRow (Cert.ReferenceIdeal.Net.v_3 (m ((c : Thread nD τ).loc main_arg7))) := by
  show after hostOps3 (W6 m ρ c) (Proc.devRef .tc main_v90) = _
  after_results
  rw [at_main_arg7 m ρ c]
  exact Cert.Rows.reshape_eq_broadcast (Cert.ReferenceIdeal.Net.v_3 (m ((c : Thread nD τ).loc main_arg7))) _ _

/-- After this kernel its output buffer holds layer 3 of the activated previous output. -/
theorem out : W8 m ρ c (Proc.devRef .tc main_v91)
    = Cert.ReferenceIdeal.Net.step (Cert.ReferenceIdeal.Net.relu Z) (m ((c : Thread nD τ).loc main_arg1)) (m ((c : Thread nD τ).loc main_arg2))
        (Cert.ReferenceIdeal.Net.w_3 (m ((c : Thread nD τ).loc main_arg4))) (Cert.ReferenceIdeal.Net.asRow (Cert.ReferenceIdeal.Net.v_3 (m ((c : Thread nD τ).loc main_arg5))))
        (Cert.ReferenceIdeal.Net.w_3 (m ((c : Thread nD τ).loc main_arg6))) (Cert.ReferenceIdeal.Net.asRow (Cert.ReferenceIdeal.Net.v_3 (m ((c : Thread nD τ).loc main_arg7)))) := by
  have e : W8 m ρ c (Proc.devRef .tc main_v91) = (dat3 (V7 m ρ) c).arrAt 6 cfg3.N := W8_arr m ρ c 6
  rw [e, Region3.final_layer (V7 m ρ) c, feat m ρ c Z hprev, agg m ρ c Z hprev, w1 m ρ c, b1 m ρ c, w2 m ρ c, b2 m ρ c]
  rfl

end Cert.KernelIdeal.Stage3

end
-- ==== Proof.KRun.lean ====
/-
  The kernel program's run, with its two results named.

  @main is nine segments: five stretches of host operations with the four layers' kernels between them.  The
  buffers' contents at each segment boundary are a fold from the launch memory: a host stretch applies its
  operations, a kernel region replaces its output array by what its write-backs leave and keeps every other
  buffer.  Every weakly fair execution terminates without a fault, and the final state holds, at every buffer
  that outlives @main, the last boundary's contents `W9` (`run_final`).  Read at the two result buffers (the
  128 × 64 output and the 128 × 256 pooled array) and at the ten argument arrays, which no segment writes, this
  is `run`.
-/
import proofs.«101399_j85624468013528_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a state that satisfies any `Q` which
    holds of every memory whose unscoped buffers are at the last segment boundary's contents `W9`. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- Every weakly fair execution of @main terminates, nothing faulting, with the two result buffers at the last
    segment boundary's contents and the argument arrays as launched. -/
theorem run : θ_run defs (onTc (τ := τ) (main (F := F))) ⟨m, fun _ => 0, ρ⟩ (fun r => ∀ c : Dev nD,
      r.2.mem ((c.tc : Thread nD τ).loc main_v98) = W9 m ρ c (Proc.devRef .tc main_v98)
      ∧ r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_final m ρ fun s h c =>
    ⟨h c _ (mem_uc main_v98 (by decide)),
     h c _ (mem_uc main_v94 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩

end Cert.KernelIdeal.Results

end
-- ==== Proof.Chain.lean ====
/-
  The kernel program's two results as functions of its arguments.

  Layer by layer, each kernel's output buffer holds the reference's layer of the activated previous output, so
  after the fourth kernel its output holds the network's last node features `h4`.  The tail stretch sums these
  rows into the graphs by the nodes' graph ids and applies the final linear map; the graph ids and the map's
  parameters are as launched.  Hence the run ends with the pooled array and the output at `pool h4` and
  `head (pool h4)` of the launch contents of the arguments.
-/
import proofs.«101399_j85624468013528_1_alg».proof.Proof.Stage0
import proofs.«101399_j85624468013528_1_alg».proof.Proof.Stage1
import proofs.«101399_j85624468013528_1_alg».proof.Proof.Stage2
import proofs.«101399_j85624468013528_1_alg».proof.Proof.Stage3
import proofs.«101399_j85624468013528_1_alg».proof.Proof.KRun

set_option maxRecDepth 16384

noncomputable section

namespace Cert.KernelIdeal.Chain

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the fourth kernel its output buffer holds the network's last node features. -/
theorem last : W8 m ρ c (Proc.devRef .tc main_v91) = Cert.ReferenceIdeal.Net.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  Stage3.out m ρ c _ (Stage2.out m ρ c _ (Stage1.out m ρ c _ (Stage0.out m ρ c)))

theorem at_main_arg3 : W8 m ρ c (Proc.devRef .tc main_arg3) = m ((c : Thread nD τ).loc main_arg3) :=
  (to8 m ρ c (r := main_arg3) (by decide) (by decide) (by decide) (by decide) (by decide) (by decide) (by decide)).trans (W1_arg m ρ c (by decide))
theorem at_main_arg8 : W8 m ρ c (Proc.devRef .tc main_arg8) = m ((c : Thread nD τ).loc main_arg8) :=
  (to8 m ρ c (r := main_arg8) (by decide) (by decide) (by decide) (by decide) (by decide) (by decide) (by decide)).trans (W1_arg m ρ c (by decide))
theorem at_main_arg9 : W8 m ρ c (Proc.devRef .tc main_arg9) = m ((c : Thread nD τ).loc main_arg9) :=
  (to8 m ρ c (r := main_arg9) (by decide) (by decide) (by decide) (by decide) (by decide) (by decide) (by decide)).trans (W1_arg m ρ c (by decide))

/-- The pooled result: the last node features summed into the graphs. -/
theorem pooled : W9 m ρ c (Proc.devRef .tc main_v94) = Cert.ReferenceIdeal.Net.pool (Cert.ReferenceIdeal.Net.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg3)) := by
  show after hostOps4 (W8 m ρ c) (Proc.devRef .tc main_v94) = _
  after_results
  rw [last m ρ c, at_main_arg3 m ρ c]
  rfl

/-- The output: the final linear map of the pooled result. -/
theorem output : W9 m ρ c (Proc.devRef .tc main_v98) = Cert.ReferenceIdeal.Net.head (Cert.ReferenceIdeal.Net.pool (Cert.ReferenceIdeal.Net.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg3))) (m ((c : Thread nD τ).loc main_arg8)) (m ((c : Thread nD τ).loc main_arg9)) := by
  show after hostOps4 (W8 m ρ c) (Proc.devRef .tc main_v98) = _
  after_results
  rw [last m ρ c, at_main_arg3 m ρ c, at_main_arg8 m ρ c, at_main_arg9 m ρ c]
  rfl

/-- The kernel program's run with its results as functions of the launch contents of the arguments. -/
theorem run : θ_run defs (onTc (τ := τ) (main (F := Ideal))) ⟨m, fun _ => 0, ρ⟩ (fun r => ∀ c : Dev nD,
      r.2.mem ((c.tc : Thread nD τ).loc main_v98) = Cert.ReferenceIdeal.Net.head (Cert.ReferenceIdeal.Net.pool (Cert.ReferenceIdeal.Net.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg3))) (m ((c : Thread nD τ).loc main_arg8)) (m ((c : Thread nD τ).loc main_arg9))
      ∧ r.2.mem ((c.tc : Thread nD τ).loc main_v94) = Cert.ReferenceIdeal.Net.pool (Cert.ReferenceIdeal.Net.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (output m ρ c), (h c).2.1.trans (pooled m ρ c), (h c).2.2⟩)
    (Results.run m ρ)

end Cert.KernelIdeal.Chain

end
-- ==== Proof.lean ====
/-
  A four-layer graph-isomorphism network on 20000 nodes and 320000 edges, with a per-graph sum and a final
  linear map: one kernel per layer's perceptron, against a reference on whole arrays.

  Both programs compute, per layer, `z = relu? (relu ((h + agg h) · W₁ + b₁) · W₂ + b₂)` with the same host
  gather and scatter-add for `agg`, then `pooled = segment_sum z` and `out = pooled · W_out + b_out`.  The kernel
  rounds `h + agg h`, the hidden activations and the weights to a 16-bit format before its two matrix products
  and cuts the 20000 rows into ten blocks of 2000; the reference multiplies whole arrays.  On the extended reals
  a change of format is the identity and every matrix product is the plain sum over the 256 shared coordinates,
  so each block of a kernel's output is a block of the reference's layer of the same arrays, the ten blocks tile
  the rows, and the two programs end at the same two arrays.  No sum is rearranged: each entry is literally the same
  sum on both sides, so the finiteness of the inputs is never used.

  The three frames: the kernel programs' are the generated ones, the reference's is its generated run with the
  results dropped.  The idealization rewrote no operation, so there is nothing to preserve.
-/
import proofs.«101399_j85624468013528_1_alg».proof.Defs
import proofs.«101399_j85624468013528_1_alg».proof.Proof.Gen.Kernel
import proofs.«101399_j85624468013528_1_alg».proof.Proof.Gen.Kernel.Skeleton
import proofs.«101399_j85624468013528_1_alg».proof.Proof.Gen.Kernel.Launch
import proofs.«101399_j85624468013528_1_alg».proof.Proof.Gen.Kernel.Points
import proofs.«101399_j85624468013528_1_alg».proof.Proof.Gen.Kernel.Frame
import proofs.«101399_j85624468013528_1_alg».proof.Proof.Gen.KernelIdeal
import proofs.«101399_j85624468013528_1_alg».proof.Proof.Gen.KernelIdeal.Skeleton
import proofs.«101399_j85624468013528_1_alg».proof.Proof.Gen.KernelIdeal.Launch
import proofs.«101399_j85624468013528_1_alg».proof.Proof.Gen.KernelIdeal.Points
import proofs.«101399_j85624468013528_1_alg».proof.Proof.Gen.KernelIdeal.Frame
import proofs.«101399_j85624468013528_1_alg».proof.Proof.Gen.ReferenceIdeal
import proofs.«101399_j85624468013528_1_alg».proof.Proof.Gen.ReferenceIdeal.Run
import proofs.«101399_j85624468013528_1_alg».proof.Proof.Gen.Pre_finite_inputs
import proofs.«101399_j85624468013528_1_alg».proof.Proof.Net
import proofs.«101399_j85624468013528_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as launched. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the output at `head (pool h4)` and the pooled array at `pool h4` of the arguments: the
    kernel program by the chain through its four regions, the reference by its run, whose two result terms are
    these compositions; the arguments agree. -/
theorem algebraic : Cert.algebraic_KernelIdeal_ReferenceIdeal := by
  intro m ρ m' ρ' _ hagree
  refine ⟨fun c => Cert.ReferenceIdeal.Net.head (Cert.ReferenceIdeal.Net.pool (Cert.ReferenceIdeal.Net.h4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.ReferenceIdeal.Net.pool (Cert.ReferenceIdeal.Net.h4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)), Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Net.res_out m' c, a0, a1, a2, a3, a4, a5, a6, a7, a8, a9]
  · obtain ⟨a0, a1, a2, a3, a4, a5, a6, a7, a8, a9⟩ := hagree c
    rw [Cert.ReferenceIdeal.Net.res_pooled m' c, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
